-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x64x64x96 : Shape := ⟨5, ![2, 64, 64, 64, 96]⟩
abbrev S2x64x64x64x1 : Shape := ⟨5, ![2, 64, 64, 64, 1]⟩
abbrev S768 : Shape := ⟨1, ![768]⟩
abbrev S768x192 : Shape := ⟨2, ![768, 192]⟩
abbrev S_ : Shape := ⟨0, ![]⟩

class Facts : Prop where
  bcast_S_S2x64x64x64x96 : S_.BroadcastsInDim S2x64x64x64x96 (![] : Fin 0 → Fin S2x64x64x64x96.rank)
  reducesTo_S2x64x64x64x96_S_d0_1_2_3_4 : S2x64x64x64x96.ReducesTo [0, 1, 2, 3, 4] S_
  h_S_ : 0 < S_.numel
  bcast_S_S2x64x64x64x1 : S_.BroadcastsInDim S2x64x64x64x1 (![] : Fin 0 → Fin S2x64x64x64x1.rank)
  reducesTo_S2x64x64x64x1_S_d0_1_2_3_4 : S2x64x64x64x1.ReducesTo [0, 1, 2, 3, 4] S_
  bcast_S_S768 : S_.BroadcastsInDim S768 (![] : Fin 0 → Fin S768.rank)
  reducesTo_S768_S_d0 : S768.ReducesTo [0] S_
  bcast_S_S768x192 : S_.BroadcastsInDim S768x192 (![] : Fin 0 → Fin S768x192.rank)
  reducesTo_S768x192_S_d0_1 : S768x192.ReducesTo [0, 1] S_

variable [Facts]

def fn_part1 {F : FTy → Type} [FloatOps F] (main_arg4 : FVec F S768x192 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x192 .f32 := Host.absf main_arg4
  let main_cst_6 : FVec F S_ .f32 := constant S_ .f32 0x7F800000#32
  let main_v20 : FVec F S768x192 .f32 := broadcastInDim S768x192 ![] bcast_S_S768x192 main_cst_6
  let main_v21 : IVec S768x192 1 := cmpf .olt main_v19 main_v20
  let main_c_7 : IVec S_ 1 := constantI S_ 1 1#1
  let main_v22 : IVec S_ 1 := (fun x v => Host.reduce IntOp.andi x v reducesTo_S768x192_S_d0_1 h_S_) main_v21 main_c_7
  let main_v23 : IVec S_ 1 := andi main_v18 main_v22
  main_v23

def fn {F : FTy → Type} [FloatOps F] (main_arg0 : FVec F S2x64x64x64x96 .f32) (main_arg1 : FVec F S2x64x64x64x1 .f32) (main_arg2 : FVec F S768 .f32) (main_arg3 : FVec F S768 .f32) (main_arg4 : FVec F S768x192 .f32) : IVec S_ 1 :=
  let main_v0 : FVec F S2x64x64x64x96 .f32 := Host.absf main_arg0
  let main_cst : FVec F S_ .f32 := constant S_ .f32 0x7F800000#32
  let main_v1 : FVec F S2x64x64x64x96 .f32 := broadcastInDim S2x64x64x64x96 ![] bcast_S_S2x64x64x64x96 main_cst
  let main_v2 : IVec S2x64x64x64x96 1 := cmpf .olt main_v0 main_v1
  let main_c : IVec S_ 1 := constantI S_ 1 1#1
  let main_v3 : IVec S_ 1 := (fun x v => Host.reduce IntOp.andi x v reducesTo_S2x64x64x64x96_S_d0_1_2_3_4 h_S_) main_v2 main_c
  let main_v4 : FVec F S2x64x64x64x1 .f32 := Host.absf main_arg1
  let main_cst_0 : FVec F S_ .f32 := constant S_ .f32 0x7F800000#32
  let main_v5 : FVec F S2x64x64x64x1 .f32 := broadcastInDim S2x64x64x64x1 ![] bcast_S_S2x64x64x64x1 main_cst_0
  let main_v6 : IVec S2x64x64x64x1 1 := cmpf .olt main_v4 main_v5
  let main_c_1 : IVec S_ 1 := constantI S_ 1 1#1
  let main_v7 : IVec S_ 1 := (fun x v => Host.reduce IntOp.andi x v reducesTo_S2x64x64x64x1_S_d0_1_2_3_4 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_v13 main_v16
-- ==== Kernel.lean ====
abbrev S2x64x64x64x96 : Shape := ⟨5, ![2, 64, 64, 64, 96]⟩
abbrev S2x64x64x64x1 : Shape := ⟨5, ![2, 64, 64, 64, 1]⟩
abbrev S768 : Shape := ⟨1, ![768]⟩
abbrev S768x192 : Shape := ⟨2, ![768, 192]⟩
abbrev S2x32x32x32x192 : Shape := ⟨5, ![2, 32, 32, 32, 192]⟩
abbrev S2x32x32x32x1 : Shape := ⟨5, ![2, 32, 32, 32, 1]⟩
abbrev S1x16x8x64x96 : Shape := ⟨5, ![1, 16, 8, 64, 96]⟩
abbrev S1x16x8x64x1 : Shape := ⟨5, ![1, 16, 8, 64, 1]⟩
abbrev S1x8x4x32x192 : Shape := ⟨5, ![1, 8, 4, 32, 192]⟩
abbrev S1x8x4x32x1 : Shape := ⟨5, ![1, 8, 4, 32, 1]⟩
abbrev S16x8x64x96 : Shape := ⟨4, ![16, 8, 64, 96]⟩
abbrev S16x8x64x1 : Shape := ⟨4, ![16, 8, 64, 1]⟩
abbrev S8x2x4x2x32x2x96 : Shape := ⟨7, ![8, 2, 4, 2, 32, 2, 96]⟩
abbrev S8x2x4x2x32x2x1 : Shape := ⟨7, ![8, 2, 4, 2, 32, 2, 1]⟩
abbrev S8x1x4x1x32x1x96 : Shape := ⟨7, ![8, 1, 4, 1, 32, 1, 96]⟩
abbrev S8x4x32x96 : Shape := ⟨4, ![8, 4, 32, 96]⟩
abbrev S8x1x4x1x32x1x1 : Shape := ⟨7, ![8, 1, 4, 1, 32, 1, 1]⟩
abbrev S8x4x32x1 : Shape := ⟨4, ![8, 4, 32, 1]⟩
abbrev S8x4x32x768 : Shape := ⟨4, ![8, 4, 32, 768]⟩
abbrev S8x4x32x8 : Shape := ⟨4, ![8, 4, 32, 8]⟩
abbrev S8x4x32 : Shape := ⟨3, ![8, 4, 32]⟩
abbrev S1x1x1x768 : Shape := ⟨4, ![1, 1, 1, 768]⟩
abbrev S1024x768 : Shape := ⟨2, ![1024, 768]⟩
abbrev S1024x192 : Shape := ⟨2, ![1024, 192]⟩
abbrev S8x4x32x192 : Shape := ⟨4, ![8, 4, 32, 192]⟩
abbrev S2x32x32x32 : Shape := ⟨4, ![2, 32, 32, 32]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S2x64x64x64x96, .f32⟩
  | .hbm, ⟨1, _⟩ => ⟨S2x64x64x64x1, .f32⟩
  | .hbm, ⟨2, _⟩ => ⟨S768, .f32⟩
  | .hbm, ⟨3, _⟩ => ⟨S768, .f32⟩
  | .hbm, ⟨4, _⟩ => ⟨S768x192, .f32⟩
  | .hbm, ⟨5, _⟩ => ⟨S2x32x32x32x192, .f32⟩
  | .hbm, ⟨6, _⟩ => ⟨S2x32x32x32x1, .f32⟩
  | .hbm, ⟨7, _⟩ => ⟨S2x32x32x32, .f32⟩
  | .hbm, ⟨8, _⟩ => ⟨S_, .f32⟩
  | .hbm, ⟨9, _⟩ => ⟨S2x32x32x32, .f32⟩
  | .hbm, ⟨10, _⟩ => ⟨S2x32x32x32, .i1⟩
  | .local _ .vmem, ⟨0, _⟩ => ⟨S1x16x8x64x96, .f32⟩
  | .local _ .vmem, ⟨1, _⟩ => ⟨S1x16x8x64x96, .f32⟩
  | .local _ .vmem, ⟨2, _⟩ => ⟨S1x16x8x64x1, .f32⟩
  | .local _ .vmem, ⟨3, _⟩ => ⟨S1x16x8x64x1, .f32⟩
  | .local _ .vmem, ⟨4, _⟩ => ⟨S768, .f32⟩
  | .local _ .vmem, ⟨5, _⟩ => ⟨S768, .f32⟩
  | .local _ .vmem, ⟨6, _⟩ => ⟨S768x192, .f32⟩
  | .local _ .vmem, ⟨7, _⟩ => ⟨S1x8x4x32x192, .f32⟩
  | .local _ .vmem, ⟨8, _⟩ => ⟨S1x8x4x32x192, .f32⟩
  | .local _ .vmem, ⟨9, _⟩ => ⟨S1x8x4x32x1, .f32⟩
  | .local _ .vmem, ⟨10, _⟩ => ⟨S1x8x4x32x1, .f32⟩
  | _, _ => ⟨S2x64x64x64x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x16x8x64x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x8x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S768x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x8x4x32x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x4x32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  inb_S1x16x8x64x96_S1x16x8x64x96_0_0_0_0_0 : ∀ a, (![0, 0, 0, 0, 0] : Fin 5 → Nat) a + S1x16x8x64x96.size a ≤ S1x16x8x64x96.size a
  h_S1x16x8x64x96 : 0 < S1x16x8x64x96.numel
  shapeCasts_S1x16x8x64x96_S16x8x64x96 : S1x16x8x64x96.ShapeCasts S16x8x64x96
  inb_S1x16x8x64x1_S1x16x8x64x1_0_0_0_0_0 : ∀ a, (![0, 0, 0, 0, 0] : Fin 5 → Nat) a + S1x16x8x64x1.size a ≤ S1x16x8x64x1.size a
  h_S1x16x8x64x1 : 0 < S1x16x8x64x1.numel
  shapeCasts_S1x16x8x64x1_S16x8x64x1 : S1x16x8x64x1.ShapeCasts S16x8x64x1
  broadcasts_S16x8x64x1_S16x8x64x96 : S16x8x64x1.Broadcasts S16x8x64x96
  shapeCasts_S16x8x64x96_S8x2x4x2x32x2x96 : S16x8x64x96.ShapeCasts S8x2x4x2x32x2x96
  shapeCasts_S16x8x64x1_S8x2x4x2x32x2x1 : S16x8x64x1.ShapeCasts S8x2x4x2x32x2x1
  slices_S8x2x4x2x32x2x96_o0_0_0_0_0_0_0_S8x1x4x1x32x1x96 : S8x2x4x2x32x2x96.Slices ![0, 0, 0, 0, 0, 0, 0] S8x1x4x1x32x1x96
  shapeCasts_S8x1x4x1x32x1x96_S8x4x32x96 : S8x1x4x1x32x1x96.ShapeCasts S8x4x32x96
  slices_S8x2x4x2x32x2x1_o0_0_0_0_0_0_0_S8x1x4x1x32x1x1 : S8x2x4x2x32x2x1.Slices ![0, 0, 0, 0, 0, 0, 0] S8x1x4x1x32x1x1
  shapeCasts_S8x1x4x1x32x1x1_S8x4x32x1 : S8x1x4x1x32x1x1.ShapeCasts S8x4x32x1
  slices_S8x2x4x2x32x2x96_o0_0_0_0_0_1_0_S8x1x4x1x32x1x96 : S8x2x4x2x32x2x96.Slices ![0, 0, 0, 0, 0, 1, 0] S8x1x4x1x32x1x96
  slices_S8x2x4x2x32x2x1_o0_0_0_0_0_1_0_S8x1x4x1x32x1x1 : S8x2x4x2x32x2x1.Slices ![0, 0, 0, 0, 0, 1, 0] S8x1x4x1x32x1x1
  slices_S8x2x4x2x32x2x96_o0_0_0_1_0_0_0_S8x1x4x1x32x1x96 : S8x2x4x2x32x2x96.Slices ![0, 0, 0, 1, 0, 0, 0] S8x1x4x1x32x1x96
  slices_S8x2x4x2x32x2x1_o0_0_0_1_0_0_0_S8x1x4x1x32x1x1 : S8x2x4x2x32x2x1.Slices ![0, 0, 0, 1, 0, 0, 0] S8x1x4x1x32x1x1
  slices_S8x2x4x2x32x2x96_o0_0_0_1_0_1_0_S8x1x4x1x32x1x96 : S8x2x4x2x32x2x96.Slices ![0, 0, 0, 1, 0, 1, 0] S8x1x4x1x32x1x96
  slices_S8x2x4x2x32x2x1_o0_0_0_1_0_1_0_S8x1x4x1x32x1x1 : S8x2x4x2x32x2x1.Slices ![0, 0, 0, 1, 0, 1, 0] S8x1x4x1x32x1x1
  slices_S8x2x4x2x32x2x96_o0_1_0_0_0_0_0_S8x1x4x1x32x1x96 : S8x2x4x2x32x2x96.Slices ![0, 1, 0, 0, 0, 0, 0] S8x1x4x1x32x1x96
  slices_S8x2x4x2x32x2x1_o0_1_0_0_0_0_0_S8x1x4x1x32x1x1 : S8x2x4x2x32x2x1.Slices ![0, 1, 0, 0, 0, 0, 0] S8x1x4x1x32x1x1
  slices_S8x2x4x2x32x2x96_o0_1_0_0_0_1_0_S8x1x4x1x32x1x96 : S8x2x4x2x32x2x96.Slices ![0, 1, 0, 0, 0, 1, 0] S8x1x4x1x32x1x96
  slices_S8x2x4x2x32x2x1_o0_1_0_0_0_1_0_S8x1x4x1x32x1x1 : S8x2x4x2x32x2x1.Slices ![0, 1, 0, 0, 0, 1, 0] S8x1x4x1x32x1x1
  slices_S8x2x4x2x32x2x96_o0_1_0_1_0_0_0_S8x1x4x1x32x1x96 : S8x2x4x2x32x2x96.Slices ![0, 1, 0, 1, 0, 0, 0] S8x1x4x1x32x1x96
  slices_S8x2x4x2x32x2x1_o0_1_0_1_0_0_0_S8x1x4x1x32x1x1 : S8x2x4x2x32x2x1.Slices ![0, 1, 0, 1, 0, 0, 0] S8x1x4x1x32x1x1
  slices_S8x2x4x2x32x2x96_o0_1_0_1_0_1_0_S8x1x4x1x32x1x96 : S8x2x4x2x32x2x96.Slices ![0, 1, 0, 1, 0, 1, 0] S8x1x4x1x32x1x96
  slices_S8x2x4x2x32x2x1_o0_1_0_1_0_1_0_S8x1x4x1x32x1x1 : S8x2x4x2x32x2x1.Slices ![0, 1, 0, 1, 0, 1, 0] S8x1x4x1x32x1x1
  concatenates_S8x4x32x96_S8x4x32x96_S8x4x32x96_S8x4x32x96_S8x4x32x96_S8x4x32x96_S8x4x32x96_S8x4x32x96_S8x4x32x768_d3 : Shape.Concatenates [S8x4x32x96, S8x4x32x96, S8x4x32x96, S8x4x32x96, S8x4x32x96, S8x4x32x96, S8x4x32x96, S8x4x32x96] S8x4x32x768 3
  concatenates_S8x4x32x1_S8x4x32x1_S8x4x32x1_S8x4x32x1_S8x4x32x1_S8x4x32x1_S8x4x32x1_S8x4x32x1_S8x4x32x8_d3 : Shape.Concatenates [S8x4x32x1, S8x4x32x1, S8x4x32x1, S8x4x32x1, S8x4x32x1, S8x4x32x1, S8x4x32x1, S8x4x32x1] S8x4x32x8 3
  reduces_S8x4x32x8_S8x4x32 : S8x4x32x8.Reduces [3] S8x4x32
  shapeCasts_S8x4x32_S8x4x32x1 : S8x4x32.ShapeCasts S8x4x32x1
  natLt_1_32 : 1 < 32
  inb_S1x8x4x32x1_S1x8x4x32x1_0_0_0_0_0 : ∀ a, (![0, 0, 0, 0, 0] : Fin 5 → Nat) a + S1x8x4x32x1.size a ≤ S1x8x4x32x1.size a
  h_S1x8x4x32x1 : 0 < S1x8x4x32x1.numel
  shapeCasts_S1x8x4x32x1_S8x4x32x1 : S1x8x4x32x1.ShapeCasts S8x4x32x1
  shapeCasts_S8x4x32x1_S1x8x4x32x1 : S8x4x32x1.ShapeCasts S1x8x4x32x1
  reduces_S8x4x32x768_S8x4x32 : S8x4x32x768.Reduces [3] S8x4x32
  broadcasts_S8x4x32x1_S8x4x32x768 : S8x4x32x1.Broadcasts S8x4x32x768
  inb_S768_S768_0 : ∀ a, (![0] : Fin 1 → Nat) a + S768.size a ≤ S768.size a
  h_S768 : 0 < S768.numel
  shapeCasts_S768_S1x1x1x768 : S768.ShapeCasts S1x1x1x768
  broadcasts_S1x1x1x768_S8x4x32x768 : S1x1x1x768.Broadcasts S8x4x32x768
  shapeCasts_S8x4x32x768_S1024x768 : S8x4x32x768.ShapeCasts S1024x768
  bitsLt_bf16_f32 : FTy.bits .bf16 < FTy.bits .f32
  inb_S768x192_S768x192_0_0 : ∀ a, (![0, 0] : Fin 2 → Nat) a + S768x192.size a ≤ S768x192.size a
  h_S768x192 : 0 < S768x192.numel
  shapeCasts_S1024x192_S8x4x32x192 : S1024x192.ShapeCasts S8x4x32x192
  inb_S1x8x4x32x192_S1x8x4x32x192_0_0_0_0_0 : ∀ a, (![0, 0, 0, 0, 0] : Fin 5 → Nat) a + S1x8x4x32x192.size a ≤ S1x8x4x32x192.size a
  h_S1x8x4x32x192 : 0 < S1x8x4x32x192.numel
  shapeCasts_S1x8x4x32x192_S8x4x32x192 : S1x8x4x32x192.ShapeCasts S8x4x32x192
  shapeCasts_S8x4x32x192_S1x8x4x32x192 : S8x4x32x192.ShapeCasts S1x8x4x32x192
  shapeCasts_S2x32x32x32x1_S2x32x32x32 : S2x32x32x32x1.ShapeCasts S2x32x32x32
  bcast_S_S2x32x32x32 : S_.BroadcastsInDim S2x32x32x32 (![] : Fin 0 → Fin S2x32x32x32.rank)
  dot_S1024x768_S768x192_S1024x192_1_0_0_1_n_n_wf : DotDims.WF S1024x768 S768x192 S1024x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x8x64x96.size a ≤ S2x64x64x64x96.size a
  hwx0_0 : ∀ i : grid0.Coords, EltTy.bits .f32 = 32 ∨ (Rect.block (s := S2x64x64x64x96) S1x16x8x64x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x8x64x1.size a ≤ S2x64x64x64x1.size a
  hwx0_1 : ∀ i : grid0.Coords, EltTy.bits .f32 = 32 ∨ (Rect.block (s := S2x64x64x64x1) S1x16x8x64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x192.size a ≤ S768x192.size a
  hwx0_4 : ∀ i : grid0.Coords, EltTy.bits .f32 = 32 ∨ (Rect.block (s := S768x192) S768x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x4x32x192.size a ≤ S2x32x32x32x192.size a
  hwx0_5 : ∀ i : grid0.Coords, EltTy.bits .f32 = 32 ∨ (Rect.block (s := S2x32x32x32x192) S1x8x4x32x192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x4x32x1.size a ≤ S2x32x32x32x1.size a
  hwx0_6 : ∀ i : grid0.Coords, EltTy.bits .f32 = 32 ∨ (Rect.block (s := S2x32x32x32x1) S1x8x4x32x1.size (cc0_transform_6 i) (hinb0_6 i)).WholeWords (EltTy.packing .f32)

variable [Facts₀]

def dot_S1024x768_S768x192_S1024x192_1_0_0_1_n_n : DotDims S1024x768 S768x192 S1024x192 where
  lhsContracting := [1]
  rhsContracting := [0]
  lhsNonContracting := [0]
  rhsNonContracting := [1]
  lhsBatch := []
  rhsBatch := []
  wf := dot_S1024x768_S768x192_S1024x192_1_0_0_1_n_n_wf

abbrev win0_0 : Pipeline.Window sig grid0 :=
  Pipeline.Window.ofSpec (Memref.whole main_arg0) S1x16x8x64x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x8x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x8x4x32x192.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x8x4x32x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x64x64x64x96 : Shape := ⟨5, ![2, 64, 64, 64, 96]⟩
abbrev S2x64x64x64x1 : Shape := ⟨5, ![2, 64, 64, 64, 1]⟩
abbrev S768 : Shape := ⟨1, ![768]⟩
abbrev S768x192 : Shape := ⟨2, ![768, 192]⟩
abbrev S2x32x2x32x2x32x2x96 : Shape := ⟨8, ![2, 32, 2, 32, 2, 32, 2, 96]⟩
abbrev S2x32x32x32x2x2x2x96 : Shape := ⟨8, ![2, 32, 32, 32, 2, 2, 2, 96]⟩
abbrev S2x32x32x32x768 : Shape := ⟨5, ![2, 32, 32, 32, 768]⟩
abbrev S2x32x2x32x2x32x2x1 : Shape := ⟨8, ![2, 32, 2, 32, 2, 32, 2, 1]⟩
abbrev S2x32x32x32x2x2x2x1 : Shape := ⟨8, ![2, 32, 32, 32, 2, 2, 2, 1]⟩
abbrev S2x32x32x32x8 : Shape := ⟨5, ![2, 32, 32, 32, 8]⟩
abbrev S_ : Shape := ⟨0, ![]⟩
abbrev S2x32x32x32 : Shape := ⟨4, ![2, 32, 32, 32]⟩
abbrev S2x32x32x32x1 : Shape := ⟨5, ![2, 32, 32, 32, 1]⟩
abbrev S1x1x1x1x768 : Shape := ⟨5, ![1, 1, 1, 1, 768]⟩
abbrev S2x32x32x32x192 : Shape := ⟨5, ![2, 32, 32, 32, 192]⟩

abbrev nBuf : Space → Nat
  | .hbm => 48
  | .vmem => 0
  | .smem => 0
  | _ => 0

abbrev bufTy : (tb : Table) → Fin (tcTables nBuf tb) → BufTy
  | .hbm, ⟨0, _⟩ => ⟨S2x64x64x64x96, .f32⟩
  | .hbm, ⟨1, _⟩ => ⟨S2x64x64x64x1, .f32⟩
  | .hbm, ⟨2, _⟩ => ⟨S768, .f32⟩
  | .hbm, ⟨3, _⟩ => ⟨S768, .f32⟩
  | .hbm, ⟨4, _⟩ => ⟨S768x192, .f32⟩
  | .hbm, ⟨5, _⟩ => ⟨S2x64x64x64x96, .f32⟩
  | .hbm, ⟨6, _⟩ => ⟨S2x64x64x64x96, .f32⟩
  | .hbm, ⟨7, _⟩ => ⟨S2x32x2x32x2x32x2x96, .f32⟩
  | .hbm, ⟨8, _⟩ => ⟨S2x32x32x32x2x2x2x96, .f32⟩
  | .hbm, ⟨9, _⟩ => ⟨S2x32x32x32x768, .f32⟩
  | .hbm, ⟨10, _⟩ => ⟨S2x32x2x32x2x32x2x1, .f32⟩
  | .hbm, ⟨11, _⟩ => ⟨S2x32x32x32x2x2x2x1, .f32⟩
  | .hbm, ⟨12, _⟩ => ⟨S2x32x32x32x8, .f32⟩
  | .hbm, ⟨13, _⟩ => ⟨S_, .f32⟩
  | .hbm, ⟨14, _⟩ => ⟨S2x32x32x32, .f32⟩
  | .hbm, ⟨15, _⟩ => ⟨S_, .f32⟩
  | .hbm, ⟨16, _⟩ => ⟨S2x32x32x32, .f32⟩
  | .hbm, ⟨17, _⟩ => ⟨S2x32x32x32, .i1⟩
  | .hbm, ⟨18, _⟩ => ⟨S_, .f32⟩
  | .hbm, ⟨19, _⟩ => ⟨S2x32x32x32, .f32⟩
  | .hbm, ⟨20, _⟩ => ⟨S2x32x32x32x1, .f32⟩
  | .hbm, ⟨21, _⟩ => ⟨S_, .f32⟩
  | .hbm, ⟨22, _⟩ => ⟨S2x32x32x32x1, .f32⟩
  | .hbm, ⟨23, _⟩ => ⟨S2x32x32x32x1, .f32⟩
  | .hbm, ⟨24, _⟩ => ⟨S2x32x32x32x768, .f32⟩
  | .hbm, ⟨25, _⟩ => ⟨S2x32x32x32x768, .f32⟩
  | .hbm, ⟨26, _⟩ => ⟨S2x32x32x32x768, .f32⟩
  | .hbm, ⟨27, _⟩ => ⟨S_, .f32⟩
  | .hbm, ⟨28, _⟩ => ⟨S2x32x32x32, .f32⟩
  | .hbm, ⟨29, _⟩ => ⟨S2x32x32x32x1, .f32⟩
  | .hbm, ⟨30, _⟩ => ⟨S_, .f32⟩
  | .hbm, ⟨31, _⟩ => ⟨S2x32x32x32x1, .f32⟩
  | .hbm, ⟨32, _⟩ => ⟨S2x32x32x32x1, .f32⟩
  | .hbm, ⟨33, _⟩ => ⟨S2x32x32x32x768, .f32⟩
  | .hbm, ⟨34, _⟩ => ⟨S2x32x32x32x768, .f32⟩
  | .hbm, ⟨35, _⟩ => ⟨S_, .f32⟩
  | .hbm, ⟨36, _⟩ => ⟨S2x32x32x32x1, .f32⟩
  | .hbm, ⟨37, _⟩ => ⟨S2x32x32x32x1, .f32⟩
  | .hbm, ⟨38, _⟩ => ⟨S2x32x32x32x1, .f32⟩
  | .hbm, ⟨39, _⟩ => ⟨S2x32x32x32x768, .f32⟩
  | .hbm, ⟨40, _⟩ => ⟨S2x32x32x32x768, .f32⟩
  | .hbm, ⟨41, _⟩ => ⟨S1x1x1x1x768, .f32⟩
  | .hbm, ⟨42, _⟩ => ⟨S2x32x32x32x768, .f32⟩
  | .hbm, ⟨43, _⟩ => ⟨S2x32x32x32x768, .f32⟩
  | .hbm, ⟨44, _⟩ => ⟨S1x1x1x1x768, .f32⟩
  | .hbm, ⟨45, _⟩ => ⟨S2x32x32x32x768, .f32⟩
  | .hbm, ⟨46, _⟩ => ⟨S2x32x32x32x768, .f32⟩
  | .hbm, ⟨47, _⟩ => ⟨S2x32x32x32x192, .f32⟩
  | _, _ => ⟨S2x64x64x64x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S2x64x64x64x1_S2x64x64x64x96_0_1_2_3_4 : S2x64x64x64x1.BroadcastsInDim S2x64x64x64x96 (![0, 1, 2, 3, 4] : Fin 5 → Fin S2x64x64x64x96.rank)
  shapeCasts_S2x64x64x64x96_S2x32x2x32x2x32x2x96 : S2x64x64x64x96.ShapeCasts S2x32x2x32x2x32x2x96
  transposes_S2x32x2x32x2x32x2x96_S2x32x32x32x2x2x2x96_0_1_3_5_2_4_6_7 : S2x32x2x32x2x32x2x96.Transposes [0, 1, 3, 5, 2, 4, 6, 7] S2x32x32x32x2x2x2x96
  shapeCasts_S2x32x32x32x2x2x2x96_S2x32x32x32x768 : S2x32x32x32x2x2x2x96.ShapeCasts S2x32x32x32x768
  shapeCasts_S2x64x64x64x1_S2x32x2x32x2x32x2x1 : S2x64x64x64x1.ShapeCasts S2x32x2x32x2x32x2x1
  transposes_S2x32x2x32x2x32x2x1_S2x32x32x32x2x2x2x1_0_1_3_5_2_4_6_7 : S2x32x2x32x2x32x2x1.Transposes [0, 1, 3, 5, 2, 4, 6, 7] S2x32x32x32x2x2x2x1
  shapeCasts_S2x32x32x32x2x2x2x1_S2x32x32x32x8 : S2x32x32x32x2x2x2x1.ShapeCasts S2x32x32x32x8
  reducesTo_S2x32x32x32x8_S2x32x32x32_d4 : S2x32x32x32x8.ReducesTo [4] S2x32x32x32
  h_S_ : 0 < S_.numel
  bcast_S_S2x32x32x32 : S_.BroadcastsInDim S2x32x32x32 (![] : Fin 0 → Fin S2x32x32x32.rank)
  reducesTo_S2x32x32x32x768_S2x32x32x32_d4 : S2x32x32x32x768.ReducesTo [4] S2x32x32x32
  bcast_S2x32x32x32_S2x32x32x32x1_0_1_2_3 : S2x32x32x32.BroadcastsInDim S2x32x32x32x1 (![0, 1, 2, 3] : Fin 4 → Fin S2x32x32x32x1.rank)
  bcast_S_S2x32x32x32x1 : S_.BroadcastsInDim S2x32x32x32x1 (![] : Fin 0 → Fin S2x32x32x32x1.rank)
  bcast_S2x32x32x32x1_S2x32x32x32x768_0_1_2_3_4 : S2x32x32x32x1.BroadcastsInDim S2x32x32x32x768 (![0, 1, 2, 3, 4] : Fin 5 → Fin S2x32x32x32x768.rank)
  bcast_S768_S1x1x1x1x768_4 : S768.BroadcastsInDim S1x1x1x1x768 (![4] : Fin 1 → Fin S1x1x1x1x768.rank)
  bcast_S1x1x1x1x768_S2x32x32x32x768_0_1_2_3_4 : S1x1x1x1x768.BroadcastsInDim S2x32x32x32x768 (![0, 1, 2, 3, 4] : Fin 5 → Fin S2x32x32x32x768.rank)
  dot_S2x32x32x32x768_S768x192_S2x32x32x32x192_4_0_0123_1_n_n_wf : DotDims.WF S2x32x32x32x768 S768x192 S2x32x32x32x192 [4] [0] [0, 1, 2, 3] [1] [] []

variable [Facts₀]

def dot_S2x32x32x32x768_S768x192_S2x32x32x32x192_4_0_0123_1_n_n : DotDims S2x32x32x32x768 S768x192 S2x32x32x32x192 where
  lhsContracting := [4]
  rhsContracting := [0]
  lhsNonContracting := [0, 1, 2, 3]
  rhsNonContracting := [1]
  lhsBatch := []
  rhsBatch := []
  wf := dot_S2x32x32x32x768_S768x192_S2x32x32x32x192_4_0_0123_1_n_n_wf

class Facts : Prop extends Facts₀ where

variable [Facts]
-- ==== Proof.LibRank78.lean ====
/-
  Indices of rank 7 and rank 8 from their coordinates, and the row-major position of such an index as one sum of
  products: the form in which linear arithmetic can compare the positions of two indices that a reshape identifies.
-/
import Idealize.ShloMosaic.Lib.ValueIdx

namespace Idealize.ShloMosaic

/-- Rank 7: the row-major position as one sum of products (last axis fastest). -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one sum of products (last axis fastest). -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
        + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun x => match x with
    | ⟨0, _⟩ => a | ⟨1, _⟩ => b | ⟨2, _⟩ => c | ⟨3, _⟩ => d | ⟨4, _⟩ => e | ⟨5, _⟩ => f | ⟨6, _⟩ => g

/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun x => match x with
    | ⟨0, _⟩ => a | ⟨1, _⟩ => b | ⟨2, _⟩ => c | ⟨3, _⟩ => d | ⟨4, _⟩ => e | ⟨5, _⟩ => f | ⟨6, _⟩ => g | ⟨7, _⟩ => h

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl
  | ⟨7, _⟩ => rfl

end ValueIdx

end Idealize.ShloMosaic
-- ==== Proof.LibSpaceToDepth.lean ====
/-
  The 2×2×2 space-to-depth merge of a voxel grid, read at an index.

  A grid [.., 2D, 2H, 2W, n] is re-laid [.., D, 2, H, 2, W, 2, n]; each of the eight parity classes (i, j, k) of the three
  spatial axes is one strided sub-grid [D, H, W, n], and the eight are laid side by side along the channel axis in the
  order q = 4i + 2j + k. Two programs build that array differently: one slices the re-laid grid at each (i, j, k), squeezes
  the three unit axes and concatenates the eight pieces; the other transposes the three parity axes behind the spatial
  ones and flattens them together with the channels. Read at an index both give the source voxel
  (2d + i, 2h + j, 2w + k) at channel ch, where the merged channel is c = q·n + ch. The lemmas below read each layout
  step at an index built from coordinates; extents of the worked grids are literal, the channel count n is any.
-/
import Idealize.ShloMosaic.Lib.Pipeline.Value
import Idealize.ShloMosaic.Lib.ValueIdx
import proofs.«121648_j6373731467415_2_alg».proof.Proof.LibRank78

namespace Idealize.ShloMosaic.SpaceToDepth

open Idealize.ShloMosaic Idealize.ShloMosaic.ValueIdx

variable {α : Type}

/-! ## The block form: a [16, 8, 64, n] tile -/

/-- The tile re-laid [8, 2, 4, 2, 32, 2, n]: at (d, i, h, j, w, k, ch) it reads the tile at (2d + i, 2h + j, 2w + k, ch),
    since a row-major split of an axis of extent 2m into (m, 2) sends coordinate 2a + r to (a, r). -/
theorem split_tile_apply {n : Nat} (v : (⟨4, ![16, 8, 64, n]⟩ : Shape).Idx → α)
    (hsc : (⟨4, ![16, 8, 64, n]⟩ : Shape).ShapeCasts ⟨7, ![8, 2, 4, 2, 32, 2, n]⟩)
    (d : Fin 8) (i : Fin 2) (h : Fin 4) (j : Fin 2) (w : Fin 32) (k : Fin 2) (ch : Fin n) :
    shapeCast ⟨7, ![8, 2, 4, 2, 32, 2, n]⟩ v hsc (ix7 d i h j w k ch)
      = v (ix4 (⟨2 * d.val + i.val, by omega⟩ : Fin 16) (⟨2 * h.val + j.val, by omega⟩ : Fin 8)
          (⟨2 * w.val + k.val, by omega⟩ : Fin 64) ch) := by
  refine shapeCast_apply v hsc _ _ ?_
  rw [Shape.rowMajor_val_four, Shape.rowMajor_val_seven]
  show (((2 * d.val + i.val) * 8 + (2 * h.val + j.val)) * 64 + (2 * w.val + k.val)) * n + ch.val
      = (((((d.val * 2 + i.val) * 4 + h.val) * 2 + j.val) * 32 + w.val) * 2 + k.val) * n + ch.val
  ring

/-- One parity class of the re-laid tile, squeezed to [8, 4, 32, n]: the slice at offsets (0, i, 0, j, 0, k, 0) of unit
    extent on the three parity axes, read at (d, h, w, ch), is the tile at (2d + i, 2h + j, 2w + k, ch). -/
theorem parity_piece_apply {n : Nat} (v : (⟨4, ![16, 8, 64, n]⟩ : Shape).Idx → α)
    (hsc : (⟨4, ![16, 8, 64, n]⟩ : Shape).ShapeCasts ⟨7, ![8, 2, 4, 2, 32, 2, n]⟩)
    (off : Fin 7 → Nat) (hsl : (⟨7, ![8, 2, 4, 2, 32, 2, n]⟩ : Shape).Slices off ⟨7, ![8, 1, 4, 1, 32, 1, n]⟩)
    (hsq : (⟨7, ![8, 1, 4, 1, 32, 1, n]⟩ : Shape).ShapeCasts ⟨4, ![8, 4, 32, n]⟩)
    (i j k : Fin 2) (hoff : off = ![0, i.val, 0, j.val, 0, k.val, 0])
    (d : Fin 8) (h : Fin 4) (w : Fin 32) (ch : Fin n) :
    shapeCast ⟨4, ![8, 4, 32, n]⟩
        (extractStridedSlice ⟨7, ![8, 1, 4, 1, 32, 1, n]⟩ off (shapeCast ⟨7, ![8, 2, 4, 2, 32, 2, n]⟩ v hsc) hsl) hsq
        (ix4 d h w ch)
      = v (ix4 (⟨2 * d.val + i.val, by omega⟩ : Fin 16) (⟨2 * h.val + j.val, by omega⟩ : Fin 8)
          (⟨2 * w.val + k.val, by omega⟩ : Fin 64) ch) := by
  subst hoff
  -- the squeeze: [8, 4, 32, n] at (d, h, w, ch) reads [8, 1, 4, 1, 32, 1, n] at (d, 0, h, 0, w, 0, ch)
  have e1 : ((⟨7, ![8, 1, 4, 1, 32, 1, n]⟩ : Shape).rowMajor (ix7 d (0 : Fin 1) h (0 : Fin 1) w (0 : Fin 1) ch)).val
      = ((⟨4, ![8, 4, 32, n]⟩ : Shape).rowMajor (ix4 d h w ch)).val := by
    rw [Shape.rowMajor_val_seven, Shape.rowMajor_val_four]
    show (((((d.val * 1 + 0) * 4 + h.val) * 1 + 0) * 32 + w.val) * 1 + 0) * n + ch.val
        = ((d.val * 4 + h.val) * 32 + w.val) * n + ch.val
    ring
  refine (shapeCast_apply _ hsq _ (ix7 d (0 : Fin 1) h (0 : Fin 1) w (0 : Fin 1) ch) e1).trans ?_
  -- the slice: shifted by the offsets on the parity axes
  refine (extractStridedSlice_apply _ _ hsl _ (ix7 d i h j w k ch) (fun a => match a with
    | ⟨0, _⟩ => by show d.val = 0 + d.val; omega
    | ⟨1, _⟩ => by show i.val = i.val + 0; omega
    | ⟨2, _⟩ => by show h.val = 0 + h.val; omega
    | ⟨3, _⟩ => by show j.val = j.val + 0; omega
    | ⟨4, _⟩ => by show w.val = 0 + w.val; omega
    | ⟨5, _⟩ => by show k.val = k.val + 0; omega
    | ⟨6, _⟩ => by show ch.val = 0 + ch.val; omega)).trans ?_
  exact split_tile_apply v hsc d i h j w k ch

/-- A concatenation along the last axis of pieces [8, 4, 32, K] into [8, 4, 32, N], read at (d, h, w, c) when c falls in
    piece q at offset r (c = K·q + r, the pieces before it taking K·q): that piece at (d, h, w, r). -/
theorem concat_last_apply {K N : Nat} (xs : List ((s : Shape) × (s.Idx → α)))
    (hcat : Shape.Concatenates (xs.map (·.1)) ⟨4, ![8, 4, 32, N]⟩ 3)
    (q : Nat) (hq : q < xs.length) (P : (⟨4, ![8, 4, 32, K]⟩ : Shape).Idx → α) (hP : xs[q] = ⟨⟨4, ![8, 4, 32, K]⟩, P⟩)
    (hpre : (((xs.take q).map (·.1)).map fun s =>
      if h : s.rank = (⟨4, ![8, 4, 32, N]⟩ : Shape).rank then s.size ((3 : Fin 4).cast h.symm) else 0).sum = K * q)
    (d : Fin 8) (h : Fin 4) (w : Fin 32) (c : Fin N) (r : Fin K) (hc : c.val = K * q + r.val) :
    concatenate ⟨4, ![8, 4, 32, N]⟩ 3 xs hcat (ix4 d h w c) = P (ix4 d h w r) :=
  concatenate_apply_piece (3 : Fin 4) xs hcat (ix4 d h w c) q hq ⟨4, ![8, 4, 32, K]⟩ P hP rfl (K * q) hpre (ix4 d h w r)
    (fun b hb => match b with
      | ⟨0, _⟩ => rfl
      | ⟨1, _⟩ => rfl
      | ⟨2, _⟩ => rfl
      | ⟨3, _⟩ => absurd rfl hb)
    (by show K * q + r.val = c.val; omega)

/-- Eight (or any number of) parity pieces of a tile laid along the channel axis, read at (d, h, w, c): when c falls in piece
    q at offset r, and piece q is the parity class (i, j, k), the tile at (2d + i, 2h + j, 2w + k, r). -/
theorem merged_tile_apply {n N : Nat} (xs : List ((s : Shape) × (s.Idx → α)))
    (hcat : Shape.Concatenates (xs.map (·.1)) ⟨4, ![8, 4, 32, N]⟩ 3)
    (v : (⟨4, ![16, 8, 64, n]⟩ : Shape).Idx → α)
    (hsc : (⟨4, ![16, 8, 64, n]⟩ : Shape).ShapeCasts ⟨7, ![8, 2, 4, 2, 32, 2, n]⟩)
    (hsq : (⟨7, ![8, 1, 4, 1, 32, 1, n]⟩ : Shape).ShapeCasts ⟨4, ![8, 4, 32, n]⟩)
    (q : Nat) (hq : q < xs.length)
    (off : Fin 7 → Nat) (hsl : (⟨7, ![8, 2, 4, 2, 32, 2, n]⟩ : Shape).Slices off ⟨7, ![8, 1, 4, 1, 32, 1, n]⟩)
    (hP : xs[q] = ⟨⟨4, ![8, 4, 32, n]⟩, shapeCast ⟨4, ![8, 4, 32, n]⟩
      (extractStridedSlice ⟨7, ![8, 1, 4, 1, 32, 1, n]⟩ off (shapeCast ⟨7, ![8, 2, 4, 2, 32, 2, n]⟩ v hsc) hsl) hsq⟩)
    (hpre : (((xs.take q).map (·.1)).map fun s =>
      if h : s.rank = (⟨4, ![8, 4, 32, N]⟩ : Shape).rank then s.size ((3 : Fin 4).cast h.symm) else 0).sum = n * q)
    (i j k : Fin 2) (hoff : off = ![0, i.val, 0, j.val, 0, k.val, 0])
    (d : Fin 8) (h : Fin 4) (w : Fin 32) (c : Fin N) (r : Fin n) (hc : c.val = n * q + r.val) :
    concatenate ⟨4, ![8, 4, 32, N]⟩ 3 xs hcat (ix4 d h w c)
      = v (ix4 (⟨2 * d.val + i.val, by omega⟩ : Fin 16) (⟨2 * h.val + j.val, by omega⟩ : Fin 8)
          (⟨2 * w.val + k.val, by omega⟩ : Fin 64) r) :=
  (concat_last_apply xs hcat q hq _ hP hpre d h w c r hc).trans
    (parity_piece_apply v hsc off hsl hsq i j k hoff d h w r)

/-! ## The whole-array form: a [2, 64, 64, 64, n] grid -/

/-- The grid re-laid [2, 32, 2, 32, 2, 32, 2, n]: at (b, d, i, h, j, w, k, ch) it reads the grid at
    (b, 2d + i, 2h + j, 2w + k, ch). -/
theorem split_grid_apply {n : Nat} (v : (⟨5, ![2, 64, 64, 64, n]⟩ : Shape).Idx → α)
    (hsc : (⟨5, ![2, 64, 64, 64, n]⟩ : Shape).ShapeCasts ⟨8, ![2, 32, 2, 32, 2, 32, 2, n]⟩)
    (b : Fin 2) (d : Fin 32) (i : Fin 2) (h : Fin 32) (j : Fin 2) (w : Fin 32) (k : Fin 2) (ch : Fin n) :
    shapeCast ⟨8, ![2, 32, 2, 32, 2, 32, 2, n]⟩ v hsc (ix8 b d i h j w k ch)
      = v (ix5 b (⟨2 * d.val + i.val, by omega⟩ : Fin 64) (⟨2 * h.val + j.val, by omega⟩ : Fin 64)
          (⟨2 * w.val + k.val, by omega⟩ : Fin 64) ch) := by
  refine shapeCast_apply v hsc _ _ ?_
  rw [Shape.rowMajor_val_five, Shape.rowMajor_val_eight]
  show (((b.val * 64 + (2 * d.val + i.val)) * 64 + (2 * h.val + j.val)) * 64 + (2 * w.val + k.val)) * n + ch.val
      = ((((((b.val * 32 + d.val) * 2 + i.val) * 32 + h.val) * 2 + j.val) * 32 + w.val) * 2 + k.val) * n + ch.val
  ring

/-- The transposed grid [2, 32, 32, 32, 2, 2, 2, n] flattened over its last four axes into N = 8n channels: at
    (b, d, h, w, c), with c = ((2i + j)·2 + k)·n + ch, it reads (b, d, h, w, i, j, k, ch). -/
theorem flatten_grid_apply {n N : Nat} (v : (⟨8, ![2, 32, 32, 32, 2, 2, 2, n]⟩ : Shape).Idx → α)
    (hsc : (⟨8, ![2, 32, 32, 32, 2, 2, 2, n]⟩ : Shape).ShapeCasts ⟨5, ![2, 32, 32, 32, N]⟩) (hN : N = 8 * n)
    (b : Fin 2) (d h w : Fin 32) (c : Fin N) (i j k : Fin 2) (ch : Fin n)
    (hc : c.val = ((i.val * 2 + j.val) * 2 + k.val) * n + ch.val) :
    shapeCast ⟨5, ![2, 32, 32, 32, N]⟩ v hsc (ix5 b d h w c) = v (ix8 b d h w i j k ch) := by
  refine shapeCast_apply v hsc _ _ ?_
  rw [Shape.rowMajor_val_eight, Shape.rowMajor_val_five]
  show ((((((b.val * 32 + d.val) * 32 + h.val) * 32 + w.val) * 2 + i.val) * 2 + j.val) * 2 + k.val) * n + ch.val
      = (((b.val * 32 + d.val) * 32 + h.val) * 32 + w.val) * N + c.val
  rw [hc, hN]
  ring

end Idealize.ShloMosaic.SpaceToDepth
-- ==== Proof.VoxelSpec.lean ====
/-
  The function both programs compute, index by index on the extended reals.

  A voxel grid x[b, D, H, W, ch] (2×64×64×64×96) is multiplied by a per-voxel mask mk[b, D, H, W, 0] and merged 2×2×2: output
  voxel (d, h, w) gathers the eight input voxels (2d + i, 2h + j, 2w + k) and lays their 96 channels side by side, parity
  class q = 4i + 2j + k first, so merged channel c = 96q + ch has i = c / 384, j = c / 192 mod 2, k = c / 96 mod 2,
  ch = c mod 96. Each merged row of 768 entries is normalised (mean, biased variance, reciprocal square root of
  variance + ε), scaled by γ, shifted by β and projected by a 768×192 matrix. Beside it, a voxel of the merged grid is
  marked when the sum of its eight mask entries is positive.
-/
import Idealize.ShloMosaic.PureOps.Ideal
import Idealize.ShloMosaic.PureOps.Ideal.Laws
import Idealize.ShloMosaic.Lib.ValueIdx

noncomputable section

namespace Cert.VoxelMerge

open Idealize.ShloMosaic Idealize.ShloMosaic.ValueIdx

/-- The row length 768 and the ε of the normalisation, as the f32 words both programs carry (never evaluated: the
    same word stands on both sides). -/
abbrev rowLen : EReal := Ideal.ofBits .f32 0x44400000#32
abbrev epsLn : EReal := Ideal.ofBits .f32 0x3727C5AC#32

/-- The mean of a row of 768 entries. -/
def rowMean (r : Fin 768 → EReal) : EReal := Ideal.div (∑ k : Fin 768, r k) rowLen

/-- Its biased variance. -/
def rowVar (r : Fin 768 → EReal) : EReal :=
  Ideal.div (∑ k : Fin 768, (r k - rowMean r) * (r k - rowMean r)) rowLen

/-- The normalised row, scaled and shifted. -/
def normed (r g be : Fin 768 → EReal) (k : Fin 768) : EReal :=
  (r k - rowMean r) * Ideal.rsqrt (rowVar r + epsLn) * g k + be k

/-- The normalised row projected onto output channel `o`. -/
def lnProj (r g be : Fin 768 → EReal) (Wm : Fin 768 → Fin 192 → EReal) (o : Fin 192) : EReal :=
  ∑ k : Fin 768, normed r g be k * Wm k o

/-- Merged row (b, d, h, w) of the masked grid: entry c is the masked input voxel of its parity class at its channel. -/
def mergedRow (x : (⟨5, ![2, 64, 64, 64, 96]⟩ : Shape).Idx → EReal) (mk : (⟨5, ![2, 64, 64, 64, 1]⟩ : Shape).Idx → EReal)
    (b : Fin 2) (d h w : Fin 32) (c : Fin 768) : EReal :=
  x (ix5 b (⟨2 * d.val + c.val / 384, by omega⟩ : Fin 64) (⟨2 * h.val + c.val / 192 % 2, by omega⟩ : Fin 64)
      (⟨2 * w.val + c.val / 96 % 2, by omega⟩ : Fin 64) (⟨c.val % 96, by omega⟩ : Fin 96))
    * mk (ix5 b (⟨2 * d.val + c.val / 384, by omega⟩ : Fin 64) (⟨2 * h.val + c.val / 192 % 2, by omega⟩ : Fin 64)
      (⟨2 * w.val + c.val / 96 % 2, by omega⟩ : Fin 64) (0 : Fin 1))

/-- The eight mask entries merged into voxel (b, d, h, w), parity class q = 4i + 2j + k. -/
def maskCell (mk : (⟨5, ![2, 64, 64, 64, 1]⟩ : Shape).Idx → EReal) (b : Fin 2) (d h w : Fin 32) (q : Fin 8) : EReal :=
  mk (ix5 b (⟨2 * d.val + q.val / 4, by omega⟩ : Fin 64) (⟨2 * h.val + q.val / 2 % 2, by omega⟩ : Fin 64)
    (⟨2 * w.val + q.val % 2, by omega⟩ : Fin 64) (0 : Fin 1))

/-- THE FIRST RESULT, [2, 32, 32, 32, 192]: the projected normalised merged row. -/
def projected (x : (⟨5, ![2, 64, 64, 64, 96]⟩ : Shape).Idx → EReal) (mk : (⟨5, ![2, 64, 64, 64, 1]⟩ : Shape).Idx → EReal)
    (g be : (⟨1, ![768]⟩ : Shape).Idx → EReal) (Wt : (⟨2, ![768, 192]⟩ : Shape).Idx → EReal) :
    (⟨5, ![2, 32, 32, 32, 192]⟩ : Shape).Idx → EReal := fun I =>
  lnProj (mergedRow x mk ⟨(I 0).val, (I 0).isLt⟩ ⟨(I 1).val, (I 1).isLt⟩ ⟨(I 2).val, (I 2).isLt⟩ ⟨(I 3).val, (I 3).isLt⟩)
    (fun k => g (ix1 k)) (fun k => be (ix1 k)) (fun k o => Wt (ix2 k o)) ⟨(I 4).val, (I 4).isLt⟩

/-- The sum of the eight merged mask entries of a voxel. -/
def maskSum (mk : (⟨5, ![2, 64, 64, 64, 1]⟩ : Shape).Idx → EReal) (b : Fin 2) (d h w : Fin 32) : EReal :=
  ∑ q : Fin 8, maskCell mk b d h w q

/-- THE SECOND RESULT, [2, 32, 32, 32] of bits: the voxel is marked when that sum is positive. -/
def marked (mk : (⟨5, ![2, 64, 64, 64, 1]⟩ : Shape).Idx → EReal) : (⟨4, ![2, 32, 32, 32]⟩ : Shape).Idx → BitVec 1 := fun I =>
  Ideal.cmp .ogt (maskSum mk ⟨(I 0).val, (I 0).isLt⟩ ⟨(I 1).val, (I 1).isLt⟩ ⟨(I 2).val, (I 2).isLt⟩ ⟨(I 3).val, (I 3).isLt⟩)
    (Ideal.ofBits .f32 0x00000000#32)

/-- The same mark as the number 1 or 0, [2, 32, 32, 32, 1]: what one program keeps in an array before comparing with ½. -/
def markedNum (mk : (⟨5, ![2, 64, 64, 64, 1]⟩ : Shape).Idx → EReal) : (⟨5, ![2, 32, 32, 32, 1]⟩ : Shape).Idx → EReal := fun I =>
  FloatOps.sitofp (F := Ideal) .f32 (BitVec.setWidth 32
    (Ideal.cmp .ogt (maskSum mk ⟨(I 0).val, (I 0).isLt⟩ ⟨(I 1).val, (I 1).isLt⟩ ⟨(I 2).val, (I 2).isLt⟩ ⟨(I 3).val, (I 3).isLt⟩)
      (Ideal.ofBits .f32 0x00000000#32)))

/-- A bit written as the number 1 or 0 exceeds ½ exactly when it is set. -/
theorem bit_gt_half (b : BitVec 1) :
    Ideal.cmp .ogt (FloatOps.sitofp (F := Ideal) .f32 (BitVec.setWidth 32 b)) (Ideal.ofBits .f32 0x3F000000#32) = b := by
  have hhalf : Ideal.ofBits .f32 0x3F000000#32 = (((1 / 2 : ℝ)) : EReal) := by
    simp [Ideal.ofBits, Ideal.ieee, -EReal.coe_mul]; norm_num
  have hb : b = 0#1 ∨ b = 1#1 := by
    revert b; decide
  rcases hb with rfl | rfl
  · have h0 : ¬ (((1 / 2 : ℝ) : EReal) < (((0 : ℤ) : ℝ) : EReal)) := by
      rw [EReal.coe_lt_coe_iff]; norm_num
    show BitVec.ofBool (decide (Ideal.ofBits .f32 0x3F000000#32 < (((0 : ℤ) : ℝ) : EReal))) = 0#1
    rw [hhalf, decide_eq_false h0]
    rfl
  · have h1 : (((1 / 2 : ℝ) : EReal) < (((1 : ℤ) : ℝ) : EReal)) := by
      rw [EReal.coe_lt_coe_iff]; norm_num
    show BitVec.ofBool (decide (Ideal.ofBits .f32 0x3F000000#32 < (((1 : ℤ) : ℝ) : EReal))) = 1#1
    rw [hhalf, decide_eq_true h1]
    rfl

end Cert.VoxelMerge

end
-- ==== Proof.KernelBody.lean ====
/-
  What the kernel's body computes at one grid point, read at an index.

  At a point the body holds a tile of the grid, x[1, 16, 8, 64, 96], and of the mask, mk[1, 16, 8, 64, 1]. It multiplies the
  tile by the mask, merges it 2×2×2 into rows of 768 = 8·96 entries — merged voxel (d, h, w) of the [8, 4, 32] block takes
  tile voxels (2d + i, 2h + j, 2w + k), parity class q = 4i + 2j + k laid first —, normalises each row, scales and shifts it
  and multiplies by the 768×192 matrix; and it sums the eight mask entries of each merged voxel and marks the voxel when
  the sum is positive. The stages are named here one by one; each printed payload is definitionally the composition of
  its stages, and each stage is read at an index built from coordinates.
-/
import proofs.«121648_j6373731467415_2_alg».proof.Proof.Gen.KernelIdeal.Skeleton
import proofs.«121648_j6373731467415_2_alg».proof.Proof.LibSpaceToDepth
import proofs.«121648_j6373731467415_2_alg».proof.Proof.VoxelSpec
import Idealize.ShloMosaic.PureOps.Ideal.Laws
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx
open Idealize.ShloMosaic.SpaceToDepth Cert.VoxelMerge

/-! ## The masked tile and the merged rows -/

/-- The tile times its mask, [16, 8, 64, 96]. -/
def maskedTile (X0 : Vec Ideal S1x16x8x64x96 .f32) (X1 : Vec Ideal S1x16x8x64x1 .f32) : FVec Ideal S16x8x64x96 .f32 :=
  mulf (shapeCast S16x8x64x96 X0 shapeCasts_S1x16x8x64x96_S16x8x64x96)
    (broadcastTo S16x8x64x96 (k0_pay1 X1) broadcasts_S16x8x64x1_S16x8x64x96)

/-- The mask tile without its leading unit axis reads the tile. -/
theorem maskTile_apply (X1 : Vec Ideal S1x16x8x64x1 .f32) (D : Fin 16) (H : Fin 8) (W : Fin 64) (z : Fin 1) :
    k0_pay1 X1 (ix4 D H W z) = X1 (ix5 (0 : Fin 1) D H W z) := by
  unfold k0_pay1
  refine shapeCast_apply _ _ _ _ ?_
  rw [Shape.rowMajor_val_five, Shape.rowMajor_val_four]
  show (((0 * 16 + D.val) * 8 + H.val) * 64 + W.val) * 1 + z.val = ((D.val * 8 + H.val) * 64 + W.val) * 1 + z.val
  omega

/-- The masked tile at a voxel and channel: the tile's entry times the voxel's mask entry. -/
theorem maskedTile_apply (X0 : Vec Ideal S1x16x8x64x96 .f32) (X1 : Vec Ideal S1x16x8x64x1 .f32)
    (D : Fin 16) (H : Fin 8) (W : Fin 64) (ch : Fin 96) :
    maskedTile X0 X1 (ix4 D H W ch) = X0 (ix5 (0 : Fin 1) D H W ch) * X1 (ix5 (0 : Fin 1) D H W (0 : Fin 1)) := by
  have e0 : shapeCast S16x8x64x96 X0 shapeCasts_S1x16x8x64x96_S16x8x64x96 (ix4 D H W ch) = X0 (ix5 (0 : Fin 1) D H W ch) := by
    refine shapeCast_apply _ _ _ _ ?_
    rw [Shape.rowMajor_val_five, Shape.rowMajor_val_four]
    show (((0 * 16 + D.val) * 8 + H.val) * 64 + W.val) * 96 + ch.val = ((D.val * 8 + H.val) * 64 + W.val) * 96 + ch.val
    omega
  have e1 : broadcastTo S16x8x64x96 (k0_pay1 X1) broadcasts_S16x8x64x1_S16x8x64x96 (ix4 D H W ch)
      = k0_pay1 X1 (ix4 D H W (0 : Fin 1)) :=
    broadcastTo_apply _ _ _ _ (fun a => match a with
      | ⟨0, _⟩ => by show D.val = if (16 : Nat) = 1 then 0 else D.val; rw [if_neg (by decide)]
      | ⟨1, _⟩ => by show H.val = if (8 : Nat) = 1 then 0 else H.val; rw [if_neg (by decide)]
      | ⟨2, _⟩ => by show W.val = if (64 : Nat) = 1 then 0 else W.val; rw [if_neg (by decide)]
      | ⟨3, _⟩ => by show 0 = if (1 : Nat) = 1 then 0 else ch.val; rw [if_pos rfl])
  show shapeCast S16x8x64x96 X0 shapeCasts_S1x16x8x64x96_S16x8x64x96 (ix4 D H W ch)
      * broadcastTo S16x8x64x96 (k0_pay1 X1) broadcasts_S16x8x64x1_S16x8x64x96 (ix4 D H W ch) = _
  rw [e0, e1, maskTile_apply]

/-- Entry c of merged row (d, h, w) of the block: the masked tile's voxel of c's parity class at c's channel. The
    concatenation's eight pieces are told apart by c / 96; in each the parity bits are literal. -/
theorem mergedRows_apply (X0 : Vec Ideal S1x16x8x64x96 .f32) (X1 : Vec Ideal S1x16x8x64x1 .f32)
    (d : Fin 8) (h : Fin 4) (w : Fin 32) (c : Fin 768) :
    k0_pay2 X0 X1 (ix4 d h w c)
      = X0 (ix5 (0 : Fin 1) (⟨2 * d.val + c.val / 384, by omega⟩ : Fin 16) (⟨2 * h.val + c.val / 192 % 2, by omega⟩ : Fin 8)
          (⟨2 * w.val + c.val / 96 % 2, by omega⟩ : Fin 64) (⟨c.val % 96, by omega⟩ : Fin 96))
        * X1 (ix5 (0 : Fin 1) (⟨2 * d.val + c.val / 384, by omega⟩ : Fin 16) (⟨2 * h.val + c.val / 192 % 2, by omega⟩ : Fin 8)
          (⟨2 * w.val + c.val / 96 % 2, by omega⟩ : Fin 64) (0 : Fin 1)) := by
  have key : ∀ (q : Nat) (i j k : Fin 2), c.val / 96 = q → q = 4 * i.val + 2 * j.val + k.val →
      maskedTile X0 X1 (ix4 (⟨2 * d.val + i.val, by omega⟩ : Fin 16) (⟨2 * h.val + j.val, by omega⟩ : Fin 8)
        (⟨2 * w.val + k.val, by omega⟩ : Fin 64) (⟨c.val % 96, by omega⟩ : Fin 96))
      = X0 (ix5 (0 : Fin 1) (⟨2 * d.val + c.val / 384, by omega⟩ : Fin 16) (⟨2 * h.val + c.val / 192 % 2, by omega⟩ : Fin 8)
          (⟨2 * w.val + c.val / 96 % 2, by omega⟩ : Fin 64) (⟨c.val % 96, by omega⟩ : Fin 96))
        * X1 (ix5 (0 : Fin 1) (⟨2 * d.val + c.val / 384, by omega⟩ : Fin 16) (⟨2 * h.val + c.val / 192 % 2, by omega⟩ : Fin 8)
          (⟨2 * w.val + c.val / 96 % 2, by omega⟩ : Fin 64) (0 : Fin 1)) := by
    intro q i j k hq hqi
    have hA : (⟨2 * d.val + i.val, by omega⟩ : Fin 16) = ⟨2 * d.val + c.val / 384, by omega⟩ := Fin.ext (by
      show 2 * d.val + i.val = 2 * d.val + c.val / 384; omega)
    have hB : (⟨2 * h.val + j.val, by omega⟩ : Fin 8) = ⟨2 * h.val + c.val / 192 % 2, by omega⟩ := Fin.ext (by
      show 2 * h.val + j.val = 2 * h.val + c.val / 192 % 2; omega)
    have hC : (⟨2 * w.val + k.val, by omega⟩ : Fin 64) = ⟨2 * w.val + c.val / 96 % 2, by omega⟩ := Fin.ext (by
      show 2 * w.val + k.val = 2 * w.val + c.val / 96 % 2; omega)
    rw [maskedTile_apply, hA, hB, hC]
  have hq : c.val / 96 = 0 ∨ c.val / 96 = 1 ∨ c.val / 96 = 2 ∨ c.val / 96 = 3 ∨ c.val / 96 = 4 ∨ c.val / 96 = 5
      ∨ c.val / 96 = 6 ∨ c.val / 96 = 7 := by omega
  unfold k0_pay2
  rcases hq with hq | hq | hq | hq | hq | hq | hq | hq
  · exact (merged_tile_apply (n := 96) (N := 768) _ _ (maskedTile X0 X1) _ _ 0 (by show (0 : Nat) < 8; decide) _ _ rfl rfl 0 0 0 rfl d h w c
      (⟨c.val % 96, by omega⟩ : Fin 96) (by show c.val = 96 * 0 + c.val % 96; omega)).trans (key 0 0 0 0 hq (by decide))
  · exact (merged_tile_apply (n := 96) (N := 768) _ _ (maskedTile X0 X1) _ _ 1 (by show (1 : Nat) < 8; decide) _ _ rfl rfl 0 0 1 rfl d h w c
      (⟨c.val % 96, by omega⟩ : Fin 96) (by show c.val = 96 * 1 + c.val % 96; omega)).trans (key 1 0 0 1 hq (by decide))
  · exact (merged_tile_apply (n := 96) (N := 768) _ _ (maskedTile X0 X1) _ _ 2 (by show (2 : Nat) < 8; decide) _ _ rfl rfl 0 1 0 rfl d h w c
      (⟨c.val % 96, by omega⟩ : Fin 96) (by show c.val = 96 * 2 + c.val % 96; omega)).trans (key 2 0 1 0 hq (by decide))
  · exact (merged_tile_apply (n := 96) (N := 768) _ _ (maskedTile X0 X1) _ _ 3 (by show (3 : Nat) < 8; decide) _ _ rfl rfl 0 1 1 rfl d h w c
      (⟨c.val % 96, by omega⟩ : Fin 96) (by show c.val = 96 * 3 + c.val % 96; omega)).trans (key 3 0 1 1 hq (by decide))
  · exact (merged_tile_apply (n := 96) (N := 768) _ _ (maskedTile X0 X1) _ _ 4 (by show (4 : Nat) < 8; decide) _ _ rfl rfl 1 0 0 rfl d h w c
      (⟨c.val % 96, by omega⟩ : Fin 96) (by show c.val = 96 * 4 + c.val % 96; omega)).trans (key 4 1 0 0 hq (by decide))
  · exact (merged_tile_apply (n := 96) (N := 768) _ _ (maskedTile X0 X1) _ _ 5 (by show (5 : Nat) < 8; decide) _ _ rfl rfl 1 0 1 rfl d h w c
      (⟨c.val % 96, by omega⟩ : Fin 96) (by show c.val = 96 * 5 + c.val % 96; omega)).trans (key 5 1 0 1 hq (by decide))
  · exact (merged_tile_apply (n := 96) (N := 768) _ _ (maskedTile X0 X1) _ _ 6 (by show (6 : Nat) < 8; decide) _ _ rfl rfl 1 1 0 rfl d h w c
      (⟨c.val % 96, by omega⟩ : Fin 96) (by show c.val = 96 * 6 + c.val % 96; omega)).trans (key 6 1 1 0 hq (by decide))
  · exact (merged_tile_apply (n := 96) (N := 768) _ _ (maskedTile X0 X1) _ _ 7 (by show (7 : Nat) < 8; decide) _ _ rfl rfl 1 1 1 rfl d h w c
      (⟨c.val % 96, by omega⟩ : Fin 96) (by show c.val = 96 * 7 + c.val % 96; omega)).trans (key 7 1 1 1 hq (by decide))

/-! ## The mark: the eight mask entries of a merged voxel, summed -/

/-- The sum of the eight mask entries merged into voxel (d, h, w) of the block. -/
theorem maskSums_apply (X1 : Vec Ideal S1x16x8x64x1 .f32) (d : Fin 8) (h : Fin 4) (w : Fin 32) :
    k0_pay3 X1 (ix4 d h w (0 : Fin 1))
      = ∑ q : Fin 8, X1 (ix5 (0 : Fin 1) (⟨2 * d.val + q.val / 4, by omega⟩ : Fin 16) (⟨2 * h.val + q.val / 2 % 2, by omega⟩ : Fin 8)
          (⟨2 * w.val + q.val % 2, by omega⟩ : Fin 64) (0 : Fin 1)) := by
  have key : ∀ (p : Fin 8) (q : Nat) (i j k : Fin 2), p.val = q → q = 4 * i.val + 2 * j.val + k.val →
      k0_pay1 X1 (ix4 (⟨2 * d.val + i.val, by omega⟩ : Fin 16) (⟨2 * h.val + j.val, by omega⟩ : Fin 8)
        (⟨2 * w.val + k.val, by omega⟩ : Fin 64) (0 : Fin 1))
      = X1 (ix5 (0 : Fin 1) (⟨2 * d.val + p.val / 4, by omega⟩ : Fin 16) (⟨2 * h.val + p.val / 2 % 2, by omega⟩ : Fin 8)
          (⟨2 * w.val + p.val % 2, by omega⟩ : Fin 64) (0 : Fin 1)) := by
    intro p q i j k hq hqi
    have hA : (⟨2 * d.val + i.val, by omega⟩ : Fin 16) = ⟨2 * d.val + p.val / 4, by omega⟩ := Fin.ext (by
      show 2 * d.val + i.val = 2 * d.val + p.val / 4; omega)
    have hB : (⟨2 * h.val + j.val, by omega⟩ : Fin 8) = ⟨2 * h.val + p.val / 2 % 2, by omega⟩ := Fin.ext (by
      show 2 * h.val + j.val = 2 * h.val + p.val / 2 % 2; omega)
    have hC : (⟨2 * w.val + k.val, by omega⟩ : Fin 64) = ⟨2 * w.val + p.val % 2, by omega⟩ := Fin.ext (by
      show 2 * w.val + k.val = 2 * w.val + p.val % 2; omega)
    rw [maskTile_apply, hA, hB, hC]
  unfold k0_pay3
  -- the kept unit axis: [8, 4, 32, 1] at (d, h, w, 0) reads [8, 4, 32] at (d, h, w)
  refine (shapeCast_apply _ _ _ (ix3 d h w) (by
    rw [Shape.rowMajor_val_three, Shape.rowMajor_val_four]
    show (d.val * 4 + h.val) * 32 + w.val = ((d.val * 4 + h.val) * 32 + w.val) * 1 + 0
    omega)).trans ?_
  -- the sum over the last axis
  refine (Ideal.multiReduction_add_single _ 0x00000000#32 reduces_S8x4x32x8_S8x4x32 (.inl rfl) rfl (ix3 d h w)).trans ?_
  show ∑ p : Fin 8, _ = _
  refine Finset.sum_congr rfl fun p _ => ?_
  have hl : reduces_S8x4x32x8_S8x4x32.lift (ix3 d h w) p = ix4 d h w p := by
    funext a
    match a with
    | ⟨0, _⟩ => rfl
    | ⟨1, _⟩ => rfl
    | ⟨2, _⟩ => rfl
    | ⟨3, _⟩ => rfl
  have hp : p.val = 0 ∨ p.val = 1 ∨ p.val = 2 ∨ p.val = 3 ∨ p.val = 4 ∨ p.val = 5 ∨ p.val = 6 ∨ p.val = 7 := by omega
  rw [hl]
  rcases hp with hp | hp | hp | hp | hp | hp | hp | hp
  · exact (merged_tile_apply (n := 1) (N := 8) _ _ (k0_pay1 X1) _ _ 0 (by show (0 : Nat) < 8; decide) _ _ rfl rfl 0 0 0 rfl d h w p
      (0 : Fin 1) (by show p.val = 1 * 0 + 0; omega)).trans (key p 0 0 0 0 hp (by decide))
  · exact (merged_tile_apply (n := 1) (N := 8) _ _ (k0_pay1 X1) _ _ 1 (by show (1 : Nat) < 8; decide) _ _ rfl rfl 0 0 1 rfl d h w p
      (0 : Fin 1) (by show p.val = 1 * 1 + 0; omega)).trans (key p 1 0 0 1 hp (by decide))
  · exact (merged_tile_apply (n := 1) (N := 8) _ _ (k0_pay1 X1) _ _ 2 (by show (2 : Nat) < 8; decide) _ _ rfl rfl 0 1 0 rfl d h w p
      (0 : Fin 1) (by show p.val = 1 * 2 + 0; omega)).trans (key p 2 0 1 0 hp (by decide))
  · exact (merged_tile_apply (n := 1) (N := 8) _ _ (k0_pay1 X1) _ _ 3 (by show (3 : Nat) < 8; decide) _ _ rfl rfl 0 1 1 rfl d h w p
      (0 : Fin 1) (by show p.val = 1 * 3 + 0; omega)).trans (key p 3 0 1 1 hp (by decide))
  · exact (merged_tile_apply (n := 1) (N := 8) _ _ (k0_pay1 X1) _ _ 4 (by show (4 : Nat) < 8; decide) _ _ rfl rfl 1 0 0 rfl d h w p
      (0 : Fin 1) (by show p.val = 1 * 4 + 0; omega)).trans (key p 4 1 0 0 hp (by decide))
  · exact (merged_tile_apply (n := 1) (N := 8) _ _ (k0_pay1 X1) _ _ 5 (by show (5 : Nat) < 8; decide) _ _ rfl rfl 1 0 1 rfl d h w p
      (0 : Fin 1) (by show p.val = 1 * 5 + 0; omega)).trans (key p 5 1 0 1 hp (by decide))
  · exact (merged_tile_apply (n := 1) (N := 8) _ _ (k0_pay1 X1) _ _ 6 (by show (6 : Nat) < 8; decide) _ _ rfl rfl 1 1 0 rfl d h w p
      (0 : Fin 1) (by show p.val = 1 * 6 + 0; omega)).trans (key p 6 1 1 0 hp (by decide))
  · exact (merged_tile_apply (n := 1) (N := 8) _ _ (k0_pay1 X1) _ _ 7 (by show (7 : Nat) < 8; decide) _ _ rfl rfl 1 1 1 rfl d h w p
      (0 : Fin 1) (by show p.val = 1 * 7 + 0; omega)).trans (key p 7 1 1 1 hp (by decide))

end Cert.KernelIdeal.Body

end
-- ==== Proof.KernelNorm.lean ====
/-
  The normalisation and projection of the merged rows at one grid point, read at an index.

  From the [8, 4, 32, 768] block of merged rows the body takes each row's sum, divides by 768, centres the row, takes the
  mean of the squares, adds ε, takes the reciprocal square root, scales the centred row by it and by γ, adds β, views
  the block as a 1024×768 matrix and multiplies it by the 768×192 weight matrix. Each stage is named; the printed
  payload is definitionally their composition; each stage read at (d, h, w, ·) is the corresponding stage of the
  row's own normalisation (VoxelSpec: rowMean, rowVar, normed, lnProj).
-/
import proofs.«121648_j6373731467415_2_alg».proof.Proof.Gen.KernelIdeal.Skeleton
import proofs.«121648_j6373731467415_2_alg».proof.Proof.VoxelSpec
import Idealize.ShloMosaic.PureOps.Ideal.Laws
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.VoxelMerge

/-! ## The stages -/

/-- Each row's sum, kept as a column [8, 4, 32, 1]. -/
def rowSumCol (u : FVec Ideal S8x4x32x768 .f32) : FVec Ideal S8x4x32x1 .f32 :=
  shapeCast S8x4x32x1 (multiReduction .add [3] S8x4x32 u 0x00000000#32 reduces_S8x4x32x768_S8x4x32 (.inl rfl) rfl)
    shapeCasts_S8x4x32_S8x4x32x1

/-- Each row's sum over 768. -/
def meanCol (u : FVec Ideal S8x4x32x768 .f32) : FVec Ideal S8x4x32x1 .f32 :=
  divf (rowSumCol u) (broadcast S8x4x32x1 (Scalar.ofBits .f32 0x44400000#32))

/-- The rows centred. -/
def centred (u : FVec Ideal S8x4x32x768 .f32) : FVec Ideal S8x4x32x768 .f32 :=
  subf u (broadcastTo S8x4x32x768 (meanCol u) broadcasts_S8x4x32x1_S8x4x32x768)

/-- 1 / sqrt(variance + ε) of each row. -/
def invStdCol (u : FVec Ideal S8x4x32x768 .f32) : FVec Ideal S8x4x32x1 .f32 :=
  rsqrt (addf (meanCol (mulf (centred u) (centred u))) (broadcast S8x4x32x1 (Scalar.ofBits .f32 0x3727C5AC#32)))

/-- A vector of 768 entries repeated over every row. -/
def overRows (g : Vec Ideal S768 .f32) : FVec Ideal S8x4x32x768 .f32 :=
  broadcastTo S8x4x32x768 (shapeCast S1x1x1x768 g shapeCasts_S768_S1x1x1x768) broadcasts_S1x1x1x768_S8x4x32x768

/-- The rows normalised, scaled by γ and shifted by β. -/
def normedBlock (u : FVec Ideal S8x4x32x768 .f32) (g be : Vec Ideal S768 .f32) : FVec Ideal S8x4x32x768 .f32 :=
  addf (mulf (mulf (centred u) (broadcastTo S8x4x32x768 (invStdCol u) broadcasts_S8x4x32x1_S8x4x32x768)) (overRows g))
    (overRows be)

/-- The normalised rows as a 1024×768 matrix times the weights, laid back as the block [1, 8, 4, 32, 192]. -/
def projBlock (u : FVec Ideal S8x4x32x768 .f32) (g be : Vec Ideal S768 .f32) (Wt : Vec Ideal S768x192 .f32) :
    FVec Ideal S1x8x4x32x192 .f32 :=
  shapeCast S1x8x4x32x192
    (shapeCast S8x4x32x192
      (matmul dot_S1024x768_S768x192_S1024x192_1_0_0_1_n_n none
        (truncf .bf16 (shapeCast S1024x768 (normedBlock u g be) shapeCasts_S8x4x32x768_S1024x768) bitsLt_bf16_f32)
        (truncf .bf16 Wt bitsLt_bf16_f32) (constant S1024x192 .f32 0x00000000#32))
      shapeCasts_S1024x192_S8x4x32x192)
    shapeCasts_S8x4x32x192_S1x8x4x32x192

/-- The printed payload is that composition. -/
theorem pay6_eq (u : FVec Ideal S8x4x32x768 .f32) (g be : Vec Ideal S768 .f32) (Wt : Vec Ideal S768x192 .f32) :
    k0_pay6 u g be Wt = projBlock u g be Wt := rfl

/-! ## Each stage at an index -/

theorem rowSumCol_apply (u : FVec Ideal S8x4x32x768 .f32) (d : Fin 8) (h : Fin 4) (w : Fin 32) :
    rowSumCol u (ix4 d h w (0 : Fin 1)) = ∑ k : Fin 768, u (ix4 d h w k) := by
  unfold rowSumCol
  refine (shapeCast_apply _ _ _ (ix3 d h w) (by
    rw [Shape.rowMajor_val_three, Shape.rowMajor_val_four]
    show (d.val * 4 + h.val) * 32 + w.val = ((d.val * 4 + h.val) * 32 + w.val) * 1 + 0
    omega)).trans ?_
  refine (Ideal.multiReduction_add_single u 0x00000000#32 reduces_S8x4x32x768_S8x4x32 (.inl rfl) rfl (ix3 d h w)).trans ?_
  show ∑ k : Fin 768, u (reduces_S8x4x32x768_S8x4x32.lift (ix3 d h w) k) = _
  refine Finset.sum_congr rfl fun k _ => congrArg u ?_
  funext a
  match a with
  | ⟨0, _⟩ => rfl
  | ⟨1, _⟩ => rfl
  | ⟨2, _⟩ => rfl
  | ⟨3, _⟩ => rfl

theorem meanCol_apply (u : FVec Ideal S8x4x32x768 .f32) (d : Fin 8) (h : Fin 4) (w : Fin 32) :
    meanCol u (ix4 d h w (0 : Fin 1)) = Ideal.div (∑ k : Fin 768, u (ix4 d h w k)) rowLen := by
  show Ideal.div (rowSumCol u (ix4 d h w (0 : Fin 1))) (Ideal.ofBits .f32 0x44400000#32) = _
  rw [rowSumCol_apply]

/-- A column [8, 4, 32, 1] spread over the 768 entries of each row. -/
theorem spreadCol_apply (col : FVec Ideal S8x4x32x1 .f32) (d : Fin 8) (h : Fin 4) (w : Fin 32) (k : Fin 768) :
    broadcastTo S8x4x32x768 col broadcasts_S8x4x32x1_S8x4x32x768 (ix4 d h w k) = col (ix4 d h w (0 : Fin 1)) :=
  broadcastTo_apply _ _ _ _ (fun a => match a with
    | ⟨0, _⟩ => by show d.val = if (8 : Nat) = 1 then 0 else d.val; rw [if_neg (by decide)]
    | ⟨1, _⟩ => by show h.val = if (4 : Nat) = 1 then 0 else h.val; rw [if_neg (by decide)]
    | ⟨2, _⟩ => by show w.val = if (32 : Nat) = 1 then 0 else w.val; rw [if_neg (by decide)]
    | ⟨3, _⟩ => by show 0 = if (1 : Nat) = 1 then 0 else k.val; rw [if_pos rfl])

theorem centred_apply (u : FVec Ideal S8x4x32x768 .f32) (d : Fin 8) (h : Fin 4) (w : Fin 32) (k : Fin 768) :
    centred u (ix4 d h w k) = u (ix4 d h w k) - rowMean (fun c => u (ix4 d h w c)) := by
  show u (ix4 d h w k) - broadcastTo S8x4x32x768 (meanCol u) broadcasts_S8x4x32x1_S8x4x32x768 (ix4 d h w k) = _
  rw [spreadCol_apply, meanCol_apply]
  rfl

theorem invStdCol_apply (u : FVec Ideal S8x4x32x768 .f32) (d : Fin 8) (h : Fin 4) (w : Fin 32) :
    invStdCol u (ix4 d h w (0 : Fin 1)) = Ideal.rsqrt (rowVar (fun c => u (ix4 d h w c)) + epsLn) := by
  show Ideal.rsqrt (meanCol (mulf (centred u) (centred u)) (ix4 d h w (0 : Fin 1)) + Ideal.ofBits .f32 0x3727C5AC#32) = _
  rw [meanCol_apply]
  have e : ∀ k : Fin 768, (mulf (centred u) (centred u)) (ix4 d h w k)
      = ((fun c => u (ix4 d h w c)) k - rowMean (fun c => u (ix4 d h w c)))
        * ((fun c => u (ix4 d h w c)) k - rowMean (fun c => u (ix4 d h w c))) := fun k => by
    show centred u (ix4 d h w k) * centred u (ix4 d h w k) = _
    rw [centred_apply]
  rw [Finset.sum_congr rfl fun k _ => e k]
  rfl

/-- A vector of 768 entries repeated over the rows reads its own entry. -/
theorem overRows_apply (g : Vec Ideal S768 .f32) (d : Fin 8) (h : Fin 4) (w : Fin 32) (k : Fin 768) :
    overRows g (ix4 d h w k) = g (ix1 k) := by
  unfold overRows
  refine (broadcastTo_apply _ _ _ (ix4 (0 : Fin 1) (0 : Fin 1) (0 : Fin 1) k) (fun a => match a with
    | ⟨0, _⟩ => by show 0 = if (1 : Nat) = 1 then 0 else d.val; rw [if_pos rfl]
    | ⟨1, _⟩ => by show 0 = if (1 : Nat) = 1 then 0 else h.val; rw [if_pos rfl]
    | ⟨2, _⟩ => by show 0 = if (1 : Nat) = 1 then 0 else w.val; rw [if_pos rfl]
    | ⟨3, _⟩ => by show k.val = if (768 : Nat) = 1 then 0 else k.val; rw [if_neg (by decide)])).trans ?_
  refine shapeCast_apply _ _ _ _ ?_
  rw [Shape.rowMajor_val_one, Shape.rowMajor_val_four]
  show k.val = ((0 * 1 + 0) * 1 + 0) * 768 + k.val
  omega

theorem normedBlock_apply (u : FVec Ideal S8x4x32x768 .f32) (g be : Vec Ideal S768 .f32)
    (d : Fin 8) (h : Fin 4) (w : Fin 32) (k : Fin 768) :
    normedBlock u g be (ix4 d h w k)
      = normed (fun c => u (ix4 d h w c)) (fun c => g (ix1 c)) (fun c => be (ix1 c)) k := by
  show centred u (ix4 d h w k) * broadcastTo S8x4x32x768 (invStdCol u) broadcasts_S8x4x32x1_S8x4x32x768 (ix4 d h w k)
      * overRows g (ix4 d h w k) + overRows be (ix4 d h w k) = _
  rw [centred_apply, spreadCol_apply, invStdCol_apply, overRows_apply, overRows_apply]
  rfl

/-! ## The matrix product -/

/-- The dimension numbers of the body's product: rows × 768 times 768 × columns. -/
abbrev DD : DotDims S1024x768 S768x192 S1024x192 := dot_S1024x768_S768x192_S1024x192_1_0_0_1_n_n

theorem lhs_row (j : S1024x192.Idx) (q : DD.contr.Idx) : (DD.lhsIdx j q 0).val = (j 0).val := by
  unfold DotDims.lhsIdx
  rw [dif_neg (show ¬(0 : Fin S1024x768.rank) ∈ DD.lhsBatch by decide),
    dif_pos (show (0 : Fin S1024x768.rank) ∈ DD.lhsNonContracting by decide)]
  rfl
theorem lhs_contr (j : S1024x192.Idx) (q : DD.contr.Idx) : (DD.lhsIdx j q 1).val = (q ⟨0, by decide⟩).val :=
  DD.lhsIdx_val_of_single rfl j q
theorem rhs_contr (j : S1024x192.Idx) (q : DD.contr.Idx) : (DD.rhsIdx j q 0).val = (q ⟨0, by decide⟩).val :=
  DD.rhsIdx_val_of_single rfl j q
theorem rhs_col (j : S1024x192.Idx) (q : DD.contr.Idx) : (DD.rhsIdx j q 1).val = (j 1).val := by
  unfold DotDims.rhsIdx
  rw [dif_neg (show ¬(1 : Fin S768x192.rank) ∈ DD.rhsBatch by decide),
    dif_pos (show (1 : Fin S768x192.rank) ∈ DD.rhsNonContracting by decide)]
  rfl

/-- The product into a zero accumulator at (r, o): the sum over the 768 contracted positions. -/
theorem product_apply (A : FVec Ideal S1024x768 .bf16) (B : FVec Ideal S768x192 .bf16) (r : Fin 1024) (o : Fin 192) :
    matmul DD none A B (constant S1024x192 .f32 0x00000000#32) (ix2 r o) = ∑ k : Fin 768, A (ix2 r k) * B (ix2 k o) := by
  simp only [matmul]
  rw [Ideal.matmul_constant_zero_apply, ← Equiv.sum_comp (ValueIdx.contrEquiv1 DD 768 rfl rfl).symm]
  refine Finset.sum_congr rfl fun k _ => ?_
  have hk := ValueIdx.contrEquiv1_symm_val DD 768 rfl rfl k
  have el : DD.lhsIdx (ix2 r o) ((ValueIdx.contrEquiv1 DD 768 rfl rfl).symm k) = ix2 r k := funext fun a => Fin.ext (by
    match a with
    | ⟨0, _⟩ => exact lhs_row _ _
    | ⟨1, _⟩ => exact (lhs_contr _ _).trans hk)
  have er : DD.rhsIdx (ix2 r o) ((ValueIdx.contrEquiv1 DD 768 rfl rfl).symm k) = ix2 k o := funext fun a => Fin.ext (by
    match a with
    | ⟨0, _⟩ => exact (rhs_contr _ _).trans hk
    | ⟨1, _⟩ => exact rhs_col _ _)
  rw [el, er]

/-- THE BLOCK'S FIRST OUTPUT at (0, d, h, w, o): row (d, h, w) of the merged block normalised and projected onto o. -/
theorem projBlock_apply (u : FVec Ideal S8x4x32x768 .f32) (g be : Vec Ideal S768 .f32) (Wt : Vec Ideal S768x192 .f32)
    (z : Fin 1) (d : Fin 8) (h : Fin 4) (w : Fin 32) (o : Fin 192) :
    projBlock u g be Wt (ix5 z d h w o)
      = lnProj (fun c => u (ix4 d h w c)) (fun c => g (ix1 c)) (fun c => be (ix1 c)) (fun c o' => Wt (ix2 c o')) o := by
  have hz : z.val = 0 := by omega
  unfold projBlock
  -- the leading unit axis
  refine (shapeCast_apply _ _ _ (ix4 d h w o) (by
    rw [Shape.rowMajor_val_four, Shape.rowMajor_val_five]
    show ((d.val * 4 + h.val) * 32 + w.val) * 192 + o.val = (((z.val * 8 + d.val) * 4 + h.val) * 32 + w.val) * 192 + o.val
    rw [hz]; omega)).trans ?_
  -- the 1024 rows are the voxels (d, h, w) in row-major order
  refine (shapeCast_apply _ _ _ (ix2 (⟨(d.val * 4 + h.val) * 32 + w.val, by omega⟩ : Fin 1024) o) (by
    rw [Shape.rowMajor_val_two, Shape.rowMajor_val_four]
    show ((d.val * 4 + h.val) * 32 + w.val) * 192 + o.val = ((d.val * 4 + h.val) * 32 + w.val) * 192 + o.val
    rfl)).trans ?_
  refine (product_apply _ _ _ _).trans ?_
  unfold lnProj
  refine Finset.sum_congr rfl fun k _ => ?_
  have eA : (truncf .bf16 (shapeCast S1024x768 (normedBlock u g be) shapeCasts_S8x4x32x768_S1024x768) bitsLt_bf16_f32 :
        FVec Ideal S1024x768 .bf16) (ix2 (⟨(d.val * 4 + h.val) * 32 + w.val, by omega⟩ : Fin 1024) k)
      = normedBlock u g be (ix4 d h w k) := by
    show shapeCast S1024x768 (normedBlock u g be) shapeCasts_S8x4x32x768_S1024x768
        (ix2 (⟨(d.val * 4 + h.val) * 32 + w.val, by omega⟩ : Fin 1024) k) = _
    refine shapeCast_apply _ _ _ _ ?_
    rw [Shape.rowMajor_val_four, Shape.rowMajor_val_two]
    show ((d.val * 4 + h.val) * 32 + w.val) * 768 + k.val = ((d.val * 4 + h.val) * 32 + w.val) * 768 + k.val
    rfl
  rw [eA, normedBlock_apply]
  rfl

end Cert.KernelIdeal.Body

end
-- ==== Proof.BlockSpec.lean ====
/-
  One grid point's outputs as blocks of the whole-array functions.

  At grid point (b, dh, hh) the body's tile of the grid is rows 16·dh … 16·dh + 15 and 8·hh … 8·hh + 7 of batch b, and its
  outputs are rows 8·dh … 8·dh + 7 and 4·hh … 4·hh + 3 of the merged grid. Merged voxel (8·dh + d, 4·hh + h, w) gathers input
  voxels (2(8·dh + d) + i, 2(4·hh + h) + j, 2w + k) = (16·dh + (2d + i), 8·hh + (2h + j), 2w + k): the tile's voxel
  (2d + i, 2h + j, 2w + k). So what the body stores at (0, d, h, w, ·) is the whole-array result at (b, 8·dh + d, 4·hh + h, w, ·).
  Stated over variables for the tile contents and the arrays, with the tile's entries given as the arrays' entries.
-/
import proofs.«121648_j6373731467415_2_alg».proof.Proof.KernelBody
import proofs.«121648_j6373731467415_2_alg».proof.Proof.KernelNorm

noncomputable section

namespace Cert.KernelIdeal.Body

open Cert.KernelIdeal Cert.KernelIdeal.Gen Idealize.ShloMosaic Idealize.ShloMosaic.ValueIdx Cert.VoxelMerge

theorem lnProj_congr {r r' g g' be be' : Fin 768 → EReal} {Wm Wm' : Fin 768 → Fin 192 → EReal} {o o' : Fin 192}
    (hr : r = r') (hg : g = g') (hbe : be = be') (hW : Wm = Wm') (ho : o = o') :
    lnProj r g be Wm o = lnProj r' g' be' Wm' o' := by
  subst hr hg hbe hW ho; rfl

/-- The first output's block: at (0, d, h, w, o) the projected normalised merged row of array voxel
    (b, 8·dh + d, 4·hh + h, w). -/
theorem block_projected (X0 : Vec Ideal S1x16x8x64x96 .f32) (X1 : Vec Ideal S1x16x8x64x1 .f32) (X2 X3 : Vec Ideal S768 .f32)
    (X4 : Vec Ideal S768x192 .f32)
    (A0 : (⟨5, ![2, 64, 64, 64, 96]⟩ : Shape).Idx → EReal) (A1 : (⟨5, ![2, 64, 64, 64, 1]⟩ : Shape).Idx → EReal)
    (A2 A3 : (⟨1, ![768]⟩ : Shape).Idx → EReal) (A4 : (⟨2, ![768, 192]⟩ : Shape).Idx → EReal)
    (b dh hh : Nat) (hb : b < 2) (hdh : dh < 4) (hhh : hh < 8)
    (h0 : ∀ (D : Fin 16) (H : Fin 8) (W : Fin 64) (ch : Fin 96), X0 (ix5 (0 : Fin 1) D H W ch)
      = A0 (ix5 (⟨b, hb⟩ : Fin 2) (⟨16 * dh + D.val, by omega⟩ : Fin 64) (⟨8 * hh + H.val, by omega⟩ : Fin 64) W ch))
    (h1 : ∀ (D : Fin 16) (H : Fin 8) (W : Fin 64) (z : Fin 1), X1 (ix5 (0 : Fin 1) D H W z)
      = A1 (ix5 (⟨b, hb⟩ : Fin 2) (⟨16 * dh + D.val, by omega⟩ : Fin 64) (⟨8 * hh + H.val, by omega⟩ : Fin 64) W z))
    (h2 : ∀ k : Fin 768, X2 (ix1 k) = A2 (ix1 k)) (h3 : ∀ k : Fin 768, X3 (ix1 k) = A3 (ix1 k))
    (h4 : ∀ (k : Fin 768) (o : Fin 192), X4 (ix2 k o) = A4 (ix2 k o))
    (z : Fin 1) (d : Fin 8) (h : Fin 4) (w : Fin 32) (o : Fin 192) (I : (⟨5, ![2, 32, 32, 32, 192]⟩ : Shape).Idx)
    (hI0 : (I 0).val = b) (hI1 : (I 1).val = 8 * dh + d.val) (hI2 : (I 2).val = 4 * hh + h.val) (hI3 : (I 3).val = w.val)
    (hI4 : (I 4).val = o.val) :
    k0_pay6 (k0_pay2 X0 X1) X2 X3 X4 (ix5 z d h w o) = projected A0 A1 A2 A3 A4 I := by
  rw [pay6_eq, projBlock_apply]
  unfold projected
  refine lnProj_congr ?_ (funext h2) (funext h3) (funext fun k => funext fun o' => h4 k o') (Fin.ext hI4.symm)
  funext c
  rw [mergedRows_apply, h0, h1]
  unfold mergedRow
  have e0 : (⟨b, hb⟩ : Fin 2) = ⟨(I 0).val, (I 0).isLt⟩ := Fin.ext hI0.symm
  have e1 : (⟨16 * dh + (⟨2 * d.val + c.val / 384, by omega⟩ : Fin 16).val, by
        show 16 * dh + (2 * d.val + c.val / 384) < 64; omega⟩ : Fin 64)
      = ⟨2 * (⟨(I 1).val, (I 1).isLt⟩ : Fin 32).val + c.val / 384, by
        have := (I 1).isLt; show 2 * (I 1).val + c.val / 384 < 64; omega⟩ := Fin.ext (by
    show 16 * dh + (2 * d.val + c.val / 384) = 2 * (I 1).val + c.val / 384; omega)
  have e2 : (⟨8 * hh + (⟨2 * h.val + c.val / 192 % 2, by omega⟩ : Fin 8).val, by
        show 8 * hh + (2 * h.val + c.val / 192 % 2) < 64; omega⟩ : Fin 64)
      = ⟨2 * (⟨(I 2).val, (I 2).isLt⟩ : Fin 32).val + c.val / 192 % 2, by
        have := (I 2).isLt; show 2 * (I 2).val + c.val / 192 % 2 < 64; omega⟩ := Fin.ext (by
    show 8 * hh + (2 * h.val + c.val / 192 % 2) = 2 * (I 2).val + c.val / 192 % 2; omega)
  have e3 : (⟨2 * w.val + c.val / 96 % 2, by omega⟩ : Fin 64)
      = ⟨2 * (⟨(I 3).val, (I 3).isLt⟩ : Fin 32).val + c.val / 96 % 2, by
        have := (I 3).isLt; show 2 * (I 3).val + c.val / 96 % 2 < 64; omega⟩ := Fin.ext (by
    show 2 * w.val + c.val / 96 % 2 = 2 * (I 3).val + c.val / 96 % 2; omega)
  rw [e0, e1, e2, e3]

/-- The second output's block: at (0, d, h, w, 0) the mark of array voxel (b, 8·dh + d, 4·hh + h, w), as 1 or 0. -/
theorem block_marked (X1 : Vec Ideal S1x16x8x64x1 .f32) (A1 : (⟨5, ![2, 64, 64, 64, 1]⟩ : Shape).Idx → EReal)
    (b dh hh : Nat) (hb : b < 2) (hdh : dh < 4) (hhh : hh < 8)
    (h1 : ∀ (D : Fin 16) (H : Fin 8) (W : Fin 64) (z : Fin 1), X1 (ix5 (0 : Fin 1) D H W z)
      = A1 (ix5 (⟨b, hb⟩ : Fin 2) (⟨16 * dh + D.val, by omega⟩ : Fin 64) (⟨8 * hh + H.val, by omega⟩ : Fin 64) W z))
    (z : Fin 1) (d : Fin 8) (h : Fin 4) (w : Fin 32) (z' : Fin 1) (I : (⟨5, ![2, 32, 32, 32, 1]⟩ : Shape).Idx)
    (hI0 : (I 0).val = b) (hI1 : (I 1).val = 8 * dh + d.val) (hI2 : (I 2).val = 4 * hh + h.val) (hI3 : (I 3).val = w.val) :
    k0_pay5 (k0_pay3 X1) (k0_pay4 (F := Ideal)) (ix5 z d h w z') = markedNum A1 I := by
  have hz : z.val = 0 := by omega
  have hz' : z' = (0 : Fin 1) := Fin.ext (by omega)
  subst hz'
  unfold k0_pay5
  refine (shapeCast_apply _ _ _ (ix4 d h w (0 : Fin 1)) (by
    rw [Shape.rowMajor_val_four, Shape.rowMajor_val_five]
    show ((d.val * 4 + h.val) * 32 + w.val) * 1 + 0 = (((z.val * 8 + d.val) * 4 + h.val) * 32 + w.val) * 1 + 0
    rw [hz]; omega)).trans ?_
  show FloatOps.sitofp (F := Ideal) .f32 (BitVec.setWidth 32
      (Ideal.cmp .ogt (k0_pay3 X1 (ix4 d h w (0 : Fin 1))) (Ideal.ofBits .f32 0x00000000#32))) = _
  rw [maskSums_apply]
  unfold markedNum maskSum
  refine congrArg (fun s => FloatOps.sitofp (F := Ideal) .f32 (BitVec.setWidth 32 (Ideal.cmp .ogt s (Ideal.ofBits .f32 0x00000000#32)))) ?_
  refine Finset.sum_congr rfl fun q _ => ?_
  rw [h1]
  unfold maskCell
  have e0 : (⟨b, hb⟩ : Fin 2) = ⟨(I 0).val, (I 0).isLt⟩ := Fin.ext hI0.symm
  have e1 : (⟨16 * dh + (⟨2 * d.val + q.val / 4, by omega⟩ : Fin 16).val, by
        show 16 * dh + (2 * d.val + q.val / 4) < 64; omega⟩ : Fin 64)
      = ⟨2 * (⟨(I 1).val, (I 1).isLt⟩ : Fin 32).val + q.val / 4, by
        have := (I 1).isLt; show 2 * (I 1).val + q.val / 4 < 64; omega⟩ := Fin.ext (by
    show 16 * dh + (2 * d.val + q.val / 4) = 2 * (I 1).val + q.val / 4; omega)
  have e2 : (⟨8 * hh + (⟨2 * h.val + q.val / 2 % 2, by omega⟩ : Fin 8).val, by
        show 8 * hh + (2 * h.val + q.val / 2 % 2) < 64; omega⟩ : Fin 64)
      = ⟨2 * (⟨(I 2).val, (I 2).isLt⟩ : Fin 32).val + q.val / 2 % 2, by
        have := (I 2).isLt; show 2 * (I 2).val + q.val / 2 % 2 < 64; omega⟩ := Fin.ext (by
    show 8 * hh + (2 * h.val + q.val / 2 % 2) = 2 * (I 2).val + q.val / 2 % 2; omega)
  have e3 : (⟨2 * w.val + q.val % 2, by omega⟩ : Fin 64)
      = ⟨2 * (⟨(I 3).val, (I 3).isLt⟩ : Fin 32).val + q.val % 2, by
        have := (I 3).isLt; show 2 * (I 3).val + q.val % 2 < 64; omega⟩ := Fin.ext (by
    show 2 * w.val + q.val % 2 = 2 * (I 3).val + q.val % 2; omega)
  rw [e0, e1, e2, e3]

end Cert.KernelIdeal.Body

end
-- ==== Proof.KernelBlocks.lean ====
/-
  From the grid points' blocks to the two output arrays.

  Grid point t = (b, dh, hh) of the 2×4×8 grid reads block (b, dh, hh, 0, 0) of the grid and of the mask (16×8×64 voxels), the whole
  of γ, β and the weights, and writes block (b, dh, hh, 0, 0) of each output (8×4×32 voxels). What it writes is the block of
  the whole-array functions `projected` and `markedNum` (BlockSpec), and the 64 blocks tile the output arrays, so after the
  run the arrays hold those functions of the argument arrays.
-/
import proofs.«121648_j6373731467415_2_alg».proof.Proof.Gen.KernelIdeal.Frame
import proofs.«121648_j6373731467415_2_alg».proof.Proof.BlockSpec

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx Cert.VoxelMerge
open Idealize.ShloMosaic.Pipeline (Dat Cfg Window)

variable (m : (ℓ : Loc nD τ sig) → Buf (Elt Ideal) ℓ) (ρ : Dev nD → PrngReg)

theorem hz5 : (![0, 0, 0, 0, 0] : Fin 5 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 64 grid points: the grid's and the mask's windows sit at the outputs' block
    on the batch and the two tiled spatial axes and at block 0 on the other two; γ, β and the weights at block 0. -/
theorem idx_facts : ∀ t : Fin cfg0.N,
    win0_0.index t (0 : Fin 5) = win0_5.index t (0 : Fin 5) ∧ win0_0.index t (1 : Fin 5) = win0_5.index t (1 : Fin 5)
    ∧ win0_0.index t (2 : Fin 5) = win0_5.index t (2 : Fin 5) ∧ win0_0.index t (3 : Fin 5) = 0 ∧ win0_0.index t (4 : Fin 5) = 0
    ∧ win0_1.index t (0 : Fin 5) = win0_5.index t (0 : Fin 5) ∧ win0_1.index t (1 : Fin 5) = win0_5.index t (1 : Fin 5)
    ∧ win0_1.index t (2 : Fin 5) = win0_5.index t (2 : Fin 5) ∧ win0_1.index t (3 : Fin 5) = 0 ∧ win0_1.index t (4 : Fin 5) = 0
    ∧ win0_2.index t (0 : Fin 1) = 0 ∧ win0_3.index t (0 : Fin 1) = 0
    ∧ win0_4.index t (0 : Fin 2) = 0 ∧ win0_4.index t (1 : Fin 2) = 0
    ∧ win0_5.index t (3 : Fin 5) = 0 ∧ win0_5.index t (4 : Fin 5) = 0
    ∧ win0_5.index t (0 : Fin 5) ≤ 1 ∧ win0_5.index t (1 : Fin 5) ≤ 3 ∧ win0_5.index t (2 : Fin 5) ≤ 7
    ∧ win0_6.index t (0 : Fin 5) = win0_5.index t (0 : Fin 5) ∧ win0_6.index t (1 : Fin 5) = win0_5.index t (1 : Fin 5)
    ∧ win0_6.index t (2 : Fin 5) = win0_5.index t (2 : Fin 5) ∧ win0_6.index t (3 : Fin 5) = 0 ∧ win0_6.index t (4 : Fin 5) = 0 :=
  (by decide +kernel : ∀ t : Fin grid0.N, _)

/-- Every block of the outputs is some point's. -/
theorem idx_onto5 : ∀ (q0 : Fin 2) (q1 : Fin 4) (q2 : Fin 8), ∃ t : Fin cfg0.N,
    win0_5.index t = ![q0.val, q1.val, q2.val, 0, 0] :=
  (by decide +kernel : ∀ (q0 : Fin 2) (q1 : Fin 4) (q2 : Fin 8), ∃ t : Fin grid0.N, win0_5.index t = ![q0.val, q1.val, q2.val, 0, 0])

theorem idx_onto6 : ∀ (q0 : Fin 2) (q1 : Fin 4) (q2 : Fin 8), ∃ t : Fin cfg0.N,
    win0_6.index t = ![q0.val, q1.val, q2.val, 0, 0] :=
  (by decide +kernel : ∀ (q0 : Fin 2) (q1 : Fin 4) (q2 : Fin 8), ∃ t : Fin grid0.N, win0_6.index t = ![q0.val, q1.val, q2.val, 0, 0])

/-! ## The input blocks, read where the outputs' block says -/

theorem read0 (c : Dev nD) (t : Fin cfg0.N) (b dh hh : Nat) (hb : b < 2) (hdh : dh < 4) (hhh : hh < 8)
    (e0 : win0_0.index t (0 : Fin 5) = b) (e1 : win0_0.index t (1 : Fin 5) = dh) (e2 : win0_0.index t (2 : Fin 5) = hh)
    (e3 : win0_0.index t (3 : Fin 5) = 0) (e4 : win0_0.index t (4 : Fin 5) = 0)
    (D : Fin 16) (H : Fin 8) (W : Fin 64) (ch : Fin 96) :
    iblk m c 0 t (ix5 (0 : Fin 1) D H W ch)
      = V m c main_arg0 (ix5 (⟨b, hb⟩ : Fin 2) (⟨16 * dh + D.val, by omega⟩ : Fin 64) (⟨8 * hh + H.val, by omega⟩ : Fin 64) W ch) := by
  show V m c main_arg0 (((cfg0.win 0).blk t).view.emb (ix5 (0 : Fin 1) D H W ch)) = V m c main_arg0 _
  refine congrArg (V m c main_arg0) ?_
  funext a; apply Fin.ext
  match a with
  | ⟨0, _⟩ => show win0_0.index t (0 : Fin 5) * 1 + 1 * 0 = b; omega
  | ⟨1, _⟩ => show win0_0.index t (1 : Fin 5) * 16 + 1 * D.val = 16 * dh + D.val; omega
  | ⟨2, _⟩ => show win0_0.index t (2 : Fin 5) * 8 + 1 * H.val = 8 * hh + H.val; omega
  | ⟨3, _⟩ => show win0_0.index t (3 : Fin 5) * 64 + 1 * W.val = W.val; omega
  | ⟨4, _⟩ => show win0_0.index t (4 : Fin 5) * 96 + 1 * ch.val = ch.val; omega

theorem read1 (c : Dev nD) (t : Fin cfg0.N) (b dh hh : Nat) (hb : b < 2) (hdh : dh < 4) (hhh : hh < 8)
    (e0 : win0_1.index t (0 : Fin 5) = b) (e1 : win0_1.index t (1 : Fin 5) = dh) (e2 : win0_1.index t (2 : Fin 5) = hh)
    (e3 : win0_1.index t (3 : Fin 5) = 0) (e4 : win0_1.index t (4 : Fin 5) = 0)
    (D : Fin 16) (H : Fin 8) (W : Fin 64) (z : Fin 1) :
    iblk m c 1 t (ix5 (0 : Fin 1) D H W z)
      = V m c main_arg1 (ix5 (⟨b, hb⟩ : Fin 2) (⟨16 * dh + D.val, by omega⟩ : Fin 64) (⟨8 * hh + H.val, by omega⟩ : Fin 64) W z) := by
  show V m c main_arg1 (((cfg0.win 1).blk t).view.emb (ix5 (0 : Fin 1) D H W z)) = V m c main_arg1 _
  refine congrArg (V m c main_arg1) ?_
  funext a; apply Fin.ext
  match a with
  | ⟨0, _⟩ => show win0_1.index t (0 : Fin 5) * 1 + 1 * 0 = b; omega
  | ⟨1, _⟩ => show win0_1.index t (1 : Fin 5) * 16 + 1 * D.val = 16 * dh + D.val; omega
  | ⟨2, _⟩ => show win0_1.index t (2 : Fin 5) * 8 + 1 * H.val = 8 * hh + H.val; omega
  | ⟨3, _⟩ => show win0_1.index t (3 : Fin 5) * 64 + 1 * W.val = W.val; omega
  | ⟨4, _⟩ => show win0_1.index t (4 : Fin 5) * 1 + 1 * z.val = z.val; omega

theorem read2 (c : Dev nD) (t : Fin cfg0.N) (e0 : win0_2.index t (0 : Fin 1) = 0) (k : Fin 768) :
    iblk m c 2 t (ix1 k) = V m c main_arg2 (ix1 k) := by
  show V m c main_arg2 (((cfg0.win 2).blk t).view.emb (ix1 k)) = V m c main_arg2 _
  refine congrArg (V m c main_arg2) ?_
  funext a; apply Fin.ext
  match a with
  | ⟨0, _⟩ => show win0_2.index t (0 : Fin 1) * 768 + 1 * k.val = k.val; omega

theorem read3 (c : Dev nD) (t : Fin cfg0.N) (e0 : win0_3.index t (0 : Fin 1) = 0) (k : Fin 768) :
    iblk m c 3 t (ix1 k) = V m c main_arg3 (ix1 k) := by
  show V m c main_arg3 (((cfg0.win 3).blk t).view.emb (ix1 k)) = V m c main_arg3 _
  refine congrArg (V m c main_arg3) ?_
  funext a; apply Fin.ext
  match a with
  | ⟨0, _⟩ => show win0_3.index t (0 : Fin 1) * 768 + 1 * k.val = k.val; omega

theorem read4 (c : Dev nD) (t : Fin cfg0.N) (e0 : win0_4.index t (0 : Fin 2) = 0) (e1 : win0_4.index t (1 : Fin 2) = 0)
    (k : Fin 768) (o : Fin 192) :
    iblk m c 4 t (ix2 k o) = V m c main_arg4 (ix2 k o) := by
  show V m c main_arg4 (((cfg0.win 4).blk t).view.emb (ix2 k o)) = V m c main_arg4 _
  refine congrArg (V m c main_arg4) ?_
  funext a; apply Fin.ext
  match a with
  | ⟨0, _⟩ => show win0_4.index t (0 : Fin 2) * 768 + 1 * k.val = k.val; omega
  | ⟨1, _⟩ => show win0_4.index t (1 : Fin 2) * 192 + 1 * o.val = o.val; omega

/-! ## What a point writes back -/

/-- Point t writes back block t of `projected` of the argument arrays. -/
theorem flushed5_eq (c : Dev nD) (t : Fin cfg0.N) :
    (dats m 0 c).flushed 5 t = ((cfg0.win 5).blk t).view.read (Elt Ideal)
      (projected (V m c main_arg0) (V m c main_arg1) (V m c main_arg2) (V m c main_arg3) (V m c main_arg4)) := by
  show (cfg0.win 5).cut (grid0.coords t) ((dats m 0 c).after 5 t) = _
  rw [after0_5]
  unfold out0_5
  rw [View.canon_unit_zero hz5]
  simp only [View.ld_unit_zero (S := S1x16x8x64x96) hz5, View.ld_unit_zero (S := S1x16x8x64x1) hz5,
    View.ld_unit_zero (S := S768) hz1, View.ld_unit_zero (S := S768x192) hz2]
  obtain ⟨a0, a1, a2, a3, a4, b0, b1, b2, b3, b4, g0, be0, w0, w1, o3, o4, l0, l1, l2, -, -, -, -, -⟩ := idx_facts t
  funext y
  obtain ⟨z, d, h, w, o, rfl⟩ : ∃ (z : Fin 1) (d : Fin 8) (h : Fin 4) (w : Fin 32) (o : Fin 192), y = ix5 z d h w o :=
    ⟨y 0, y 1, y 2, y 3, y 4, eq_ix5 y⟩
  have hzv : z.val = 0 := by omega
  have hb : win0_5.index t (0 : Fin 5) < 2 := by omega
  have hdh : win0_5.index t (1 : Fin 5) < 4 := by omega
  have hhh : win0_5.index t (2 : Fin 5) < 8 := by omega
  refine block_projected _ _ _ _ _ _ _ _ _ _ (win0_5.index t (0 : Fin 5)) (win0_5.index t (1 : Fin 5))
    (win0_5.index t (2 : Fin 5)) hb hdh hhh
    (read0 m c t _ _ _ hb hdh hhh a0 a1 a2 a3 a4) (read1 m c t _ _ _ hb hdh hhh b0 b1 b2 b3 b4) (read2 m c t g0) (read3 m c t be0)
    (read4 m c t w0 w1) z d h w o _ ?_ ?_ ?_ ?_ ?_
  · show win0_5.index t (0 : Fin 5) * 1 + 1 * z.val = win0_5.index t (0 : Fin 5); omega
  · show win0_5.index t (1 : Fin 5) * 8 + 1 * d.val = 8 * win0_5.index t (1 : Fin 5) + d.val; omega
  · show win0_5.index t (2 : Fin 5) * 4 + 1 * h.val = 4 * win0_5.index t (2 : Fin 5) + h.val; omega
  · show win0_5.index t (3 : Fin 5) * 32 + 1 * w.val = w.val; omega
  · show win0_5.index t (4 : Fin 5) * 192 + 1 * o.val = o.val; omega

/-- Point t writes back block t of `markedNum` of the mask. -/
theorem flushed6_eq (c : Dev nD) (t : Fin cfg0.N) :
    (dats m 0 c).flushed 6 t = ((cfg0.win 6).blk t).view.read (Elt Ideal) (markedNum (V m c main_arg1)) := by
  show (cfg0.win 6).cut (grid0.coords t) ((dats m 0 c).after 6 t) = _
  rw [after0_6]
  unfold out0_6
  rw [View.canon_unit_zero hz5]
  simp only [View.ld_unit_zero (S := S1x16x8x64x1) hz5]
  obtain ⟨-, -, -, -, -, b0, b1, b2, b3, b4, -, -, -, -, -, -, l0, l1, l2, m0, m1, m2, m3, m4⟩ := idx_facts t
  funext y
  obtain ⟨z, d, h, w, z', rfl⟩ : ∃ (z : Fin 1) (d : Fin 8) (h : Fin 4) (w : Fin 32) (z' : Fin 1), y = ix5 z d h w z' :=
    ⟨y 0, y 1, y 2, y 3, y 4, eq_ix5 y⟩
  have hzv : z.val = 0 := by omega
  have hb : win0_5.index t (0 : Fin 5) < 2 := by omega
  have hdh : win0_5.index t (1 : Fin 5) < 4 := by omega
  have hhh : win0_5.index t (2 : Fin 5) < 8 := by omega
  refine block_marked _ _ (win0_5.index t (0 : Fin 5)) (win0_5.index t (1 : Fin 5)) (win0_5.index t (2 : Fin 5))
    hb hdh hhh (read1 m c t _ _ _ hb hdh hhh b0 b1 b2 b3 b4) z d h w z' _ ?_ ?_ ?_ ?_
  · show win0_6.index t (0 : Fin 5) * 1 + 1 * z.val = win0_5.index t (0 : Fin 5); omega
  · show win0_6.index t (1 : Fin 5) * 8 + 1 * d.val = 8 * win0_5.index t (1 : Fin 5) + d.val; omega
  · show win0_6.index t (2 : Fin 5) * 4 + 1 * h.val = 4 * win0_5.index t (2 : Fin 5) + h.val; omega
  · show win0_6.index t (3 : Fin 5) * 32 + 1 * w.val = w.val; omega

/-! ## The blocks tile the arrays -/

theorem mem_blk5 (t : Fin cfg0.N) (i : S2x32x32x32x192.Idx) :
    i ∈ ((cfg0.win 5).blk t).view.set ↔ ∀ a : Fin 5, win0_5.index t a * S1x8x4x32x192.size a ≤ (i a).val
      ∧ (i a).val < win0_5.index t a * S1x8x4x32x192.size a + S1x8x4x32x192.size a := by
  show i ∈ ((View.whole main_v0_0).slice (win0_5.rect t)).set ↔ _
  rw [View.set_slice_whole, Rect.mem_set_unit]
  exact Iff.rfl

theorem mem_blk6 (t : Fin cfg0.N) (i : S2x32x32x32x1.Idx) :
    i ∈ ((cfg0.win 6).blk t).view.set ↔ ∀ a : Fin 5, win0_6.index t a * S1x8x4x32x1.size a ≤ (i a).val
      ∧ (i a).val < win0_6.index t a * S1x8x4x32x1.size a + S1x8x4x32x1.size a := by
  show i ∈ ((View.whole main_v0_1).slice (win0_6.rect t)).set ↔ _
  rw [View.set_slice_whole, Rect.mem_set_unit]
  exact Iff.rfl

theorem cover5 (i : S2x32x32x32x192.Idx) :
    ∃ t : Fin cfg0.N, (cfg0.win 5).flush t = true ∧ i ∈ ((cfg0.win 5).blk t).view.set := by
  have h0 : (i 0).val < 2 := (i 0).isLt
  have h1 : (i 1).val < 32 := (i 1).isLt
  have h2 : (i 2).val < 32 := (i 2).isLt
  have h3 : (i 3).val < 32 := (i 3).isLt
  have h4 : (i 4).val < 192 := (i 4).isLt
  obtain ⟨t, ht⟩ := idx_onto5 ⟨(i 0).val, h0⟩ ⟨(i 1).val / 8, by omega⟩ ⟨(i 2).val / 4, by omega⟩
  have q0 : win0_5.index t (0 : Fin 5) = (i 0).val := congrFun ht 0
  have q1 : win0_5.index t (1 : Fin 5) = (i 1).val / 8 := congrFun ht 1
  have q2 : win0_5.index t (2 : Fin 5) = (i 2).val / 4 := congrFun ht 2
  have q3 : win0_5.index t (3 : Fin 5) = 0 := congrFun ht 3
  have q4 : win0_5.index t (4 : Fin 5) = 0 := congrFun ht 4
  refine ⟨t, flush0_5 t, ?_⟩
  rw [mem_blk5]
  intro a
  match a with
  | ⟨0, _⟩ => show win0_5.index t (0 : Fin 5) * 1 ≤ (i 0).val ∧ (i 0).val < win0_5.index t (0 : Fin 5) * 1 + 1; omega
  | ⟨1, _⟩ => show win0_5.index t (1 : Fin 5) * 8 ≤ (i 1).val ∧ (i 1).val < win0_5.index t (1 : Fin 5) * 8 + 8; omega
  | ⟨2, _⟩ => show win0_5.index t (2 : Fin 5) * 4 ≤ (i 2).val ∧ (i 2).val < win0_5.index t (2 : Fin 5) * 4 + 4; omega
  | ⟨3, _⟩ => show win0_5.index t (3 : Fin 5) * 32 ≤ (i 3).val ∧ (i 3).val < win0_5.index t (3 : Fin 5) * 32 + 32; omega
  | ⟨4, _⟩ => show win0_5.index t (4 : Fin 5) * 192 ≤ (i 4).val ∧ (i 4).val < win0_5.index t (4 : Fin 5) * 192 + 192; omega

theorem cover6 (i : S2x32x32x32x1.Idx) :
    ∃ t : Fin cfg0.N, (cfg0.win 6).flush t = true ∧ i ∈ ((cfg0.win 6).blk t).view.set := by
  have h0 : (i 0).val < 2 := (i 0).isLt
  have h1 : (i 1).val < 32 := (i 1).isLt
  have h2 : (i 2).val < 32 := (i 2).isLt
  have h3 : (i 3).val < 32 := (i 3).isLt
  have h4 : (i 4).val < 1 := (i 4).isLt
  obtain ⟨t, ht⟩ := idx_onto6 ⟨(i 0).val, h0⟩ ⟨(i 1).val / 8, by omega⟩ ⟨(i 2).val / 4, by omega⟩
  have q0 : win0_6.index t (0 : Fin 5) = (i 0).val := congrFun ht 0
  have q1 : win0_6.index t (1 : Fin 5) = (i 1).val / 8 := congrFun ht 1
  have q2 : win0_6.index t (2 : Fin 5) = (i 2).val / 4 := congrFun ht 2
  have q3 : win0_6.index t (3 : Fin 5) = 0 := congrFun ht 3
  have q4 : win0_6.index t (4 : Fin 5) = 0 := congrFun ht 4
  refine ⟨t, flush0_6 t, ?_⟩
  rw [mem_blk6]
  intro a
  match a with
  | ⟨0, _⟩ => show win0_6.index t (0 : Fin 5) * 1 ≤ (i 0).val ∧ (i 0).val < win0_6.index t (0 : Fin 5) * 1 + 1; omega
  | ⟨1, _⟩ => show win0_6.index t (1 : Fin 5) * 8 ≤ (i 1).val ∧ (i 1).val < win0_6.index t (1 : Fin 5) * 8 + 8; omega
  | ⟨2, _⟩ => show win0_6.index t (2 : Fin 5) * 4 ≤ (i 2).val ∧ (i 2).val < win0_6.index t (2 : Fin 5) * 4 + 4; omega
  | ⟨3, _⟩ => show win0_6.index t (3 : Fin 5) * 32 ≤ (i 3).val ∧ (i 3).val < win0_6.index t (3 : Fin 5) * 32 + 32; omega
  | ⟨4, _⟩ => show win0_6.index t (4 : Fin 5) * 1 ≤ (i 4).val ∧ (i 4).val < win0_6.index t (4 : Fin 5) * 1 + 1; omega

/-! ## The arrays after the run -/

theorem final5 (c : Dev nD) : (dats m 0 c).arrAt 5 cfg0.N
    = projected (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed5_eq m c t) cover5

theorem final6 (c : Dev nD) : (dats m 0 c).arrAt 6 cfg0.N = markedNum (m ((c : Thread nD τ).loc main_arg1)) :=
  (dats m 0 c).arrAt_eq_of_cover 6 _ (fun t _ => flushed6_eq m c t) cover6

end Cert.KernelIdeal.Blocks

end
-- ==== Proof.KernelRun.lean ====
/-
  The kernel program's run, read: its two results as functions of the argument arrays.

  After the region the first output array holds `projected` of the arguments and the second `markedNum` of the mask (the
  mark as the number 1 or 0). The program then drops the second array's trailing unit axis and compares it with ½: a bit
  written as 1 or 0 exceeds ½ exactly when it is set, so the second result is the mark itself.
-/
import proofs.«121648_j6373731467415_2_alg».proof.Proof.KernelBlocks
import Idealize.ShloMosaic.Lib.StableHlo.Run

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx Cert.VoxelMerge
open Idealize.ShloMosaic.Pipeline (Dat Cfg Window)
open Idealize.ShloMosaic.StableHlo

variable (m : (ℓ : Loc nD τ sig) → Buf (Elt Ideal) ℓ) (ρ : Dev nD → PrngReg)

/-- The array of marks as numbers, its unit axis dropped, compared with ½: the marks. -/
theorem mark_of_num (A : S2x32x32x32x1.Idx → EReal) (A1 : (⟨5, ![2, 64, 64, 64, 1]⟩ : Shape).Idx → EReal) (hA : A = markedNum A1) :
    cmpf (F := Ideal) .ogt (shapeCast S2x32x32x32 A shapeCasts_S2x32x32x32x1_S2x32x32x32)
      (broadcastInDim S2x32x32x32 ![] bcast_S_S2x32x32x32 (constant (F := Ideal) S_ .f32 0x3F000000#32)) = marked A1 := by
  subst hA
  funext I
  obtain ⟨b, d, h, w, rfl⟩ : ∃ (b : Fin 2) (d h w : Fin 32), I = ix4 b d h w := ⟨I 0, I 1, I 2, I 3, eq_ix4 I⟩
  show Ideal.cmp .ogt (shapeCast S2x32x32x32 (markedNum A1) shapeCasts_S2x32x32x32x1_S2x32x32x32 (ix4 b d h w))
      (Ideal.ofBits .f32 0x3F000000#32) = _
  rw [shapeCast_apply (markedNum A1) shapeCasts_S2x32x32x32x1_S2x32x32x32 (ix4 b d h w) (ix5 b d h w (0 : Fin 1)) (by
    rw [Shape.rowMajor_val_five, Shape.rowMajor_val_four]
    show (((b.val * 32 + d.val) * 32 + h.val) * 32 + w.val) * 1 + 0 = ((b.val * 32 + d.val) * 32 + h.val) * 32 + w.val
    omega)]
  exact bit_gt_half _

/-- The program's second result after the host lines that follow the region. -/
theorem tail_eq (c : Dev nD) :
    Pipeline.afterTail₀ cfgs (dats m) 0 (V0 m) [hostOps1] c main_v3 = marked (m ((c : Thread nD τ).loc main_arg1)) := by
  have hA : Pipeline.withArrays (cfgs 0).spec c (V0 m c) (fun w => (dats m 0 c).arrAt w (cfgs 0).N) (Proc.tc.devRef main_v0_1)
      = markedNum (m ((c : Thread nD τ).loc main_arg1)) :=
    (Pipeline.withArrays_arr spec0 launch0.win.arr_inj c _ _ 6).trans (final6 m c)
  unfold Pipeline.afterTail₀
  show StableHlo.after hostOps1 _ (Proc.devRef .tc main_v3) = _
  after_results
  exact mark_of_num _ _ hA

/-- THE RUN: every weakly fair execution terminates with the first result at `projected` of the arguments, the second at
    `marked` of the mask, and the arguments unchanged. -/
theorem run : θ_run defs (onTc (τ := τ) (main (F := Ideal))) ⟨m, fun _ => 0, ρ⟩ fun r => ∀ c : Dev nD,
      r.2.mem ((c.tc : Thread nD τ).loc main_v0_0)
        = projected (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_v3) = marked (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c),
      ((h c).2 main_v3 (Pipeline.mem_restRefs_of main_v3 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Blocks

end
-- ==== Proof.RefRead.lean ====
/-
  The reference's result, stage by stage, read at an index.

  The reference multiplies the grid by the mask, re-lays it [2, 32, 2, 32, 2, 32, 2, 96], moves the three parity axes behind the
  spatial ones and flattens them with the channels into rows of 768; it sums each row, divides by 768, centres, squares,
  averages, adds ε, takes the reciprocal square root, scales by γ, shifts by β and contracts with the 768×192 matrix; and it
  merges the mask alone the same way into rows of 8, sums them and compares with 0. Each stage at (b, d, h, w, ·) is the
  stage of the merged row's own normalisation (VoxelSpec), so the two results are `projected` and `marked`.
-/
import proofs.«121648_j6373731467415_2_alg».proof.Proof.Gen.ReferenceIdeal.Read
import proofs.«121648_j6373731467415_2_alg».proof.Proof.LibSpaceToDepth
import proofs.«121648_j6373731467415_2_alg».proof.Proof.VoxelSpec

noncomputable section

namespace Cert.ReferenceIdeal.RefValue

open Cert.ReferenceIdeal Cert.ReferenceIdeal.Read Idealize.ShloMosaic Idealize.ShloMosaic.ValueIdx
open Idealize.ShloMosaic.SpaceToDepth Cert.VoxelMerge

variable (x0 : (⟨S2x64x64x64x96, .f32⟩ : BufTy).Contents (Elt Ideal)) (x1 : (⟨S2x64x64x64x1, .f32⟩ : BufTy).Contents (Elt Ideal))
  (x2 x3 : (⟨S768, .f32⟩ : BufTy).Contents (Elt Ideal)) (x4 : (⟨S768x192, .f32⟩ : BufTy).Contents (Elt Ideal))

/-! ## The merged rows -/

/-- Entry c of merged row (b, d, h, w): the masked grid at the voxel of c's parity class, at c's channel. -/
theorem merged_apply (b : Fin 2) (d h w : Fin 32) (c : Fin 768) :
    val_main_v4 (F := Ideal) x0 x1 (ix5 b d h w c) = mergedRow x0 x1 b d h w c := by
  unfold val_main_v4
  refine (flatten_grid_apply (n := 96) (N := 768) _ _ rfl b d h w c (⟨c.val / 384, by omega⟩ : Fin 2)
    (⟨c.val / 192 % 2, by omega⟩ : Fin 2) (⟨c.val / 96 % 2, by omega⟩ : Fin 2) (⟨c.val % 96, by omega⟩ : Fin 96) (by
      show c.val = ((c.val / 384 * 2 + c.val / 192 % 2) * 2 + c.val / 96 % 2) * 96 + c.val % 96
      omega)).trans ?_
  rw [val_main_v3_apply]
  have e : idx_main_v3 (ix8 b d h w (⟨c.val / 384, by omega⟩ : Fin 2) (⟨c.val / 192 % 2, by omega⟩ : Fin 2)
        (⟨c.val / 96 % 2, by omega⟩ : Fin 2) (⟨c.val % 96, by omega⟩ : Fin 96))
      = ix8 b d (⟨c.val / 384, by omega⟩ : Fin 2) h (⟨c.val / 192 % 2, by omega⟩ : Fin 2) w
        (⟨c.val / 96 % 2, by omega⟩ : Fin 2) (⟨c.val % 96, by omega⟩ : Fin 96) := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  rw [e]
  unfold val_main_v2
  refine (split_grid_apply _ _ b d _ h _ w _ _).trans ?_
  rw [val_main_v1_apply, val_main_v0_apply]
  unfold mergedRow
  refine congrArg (fun t => x0 _ * x1 t) ?_
  funext a
  match a with
  | ⟨0, _⟩ => rfl
  | ⟨1, _⟩ => rfl
  | ⟨2, _⟩ => rfl
  | ⟨3, _⟩ => rfl
  | ⟨4, _⟩ => rfl

/-- Entry q of the merged mask row (b, d, h, w). -/
theorem mergedMask_apply (b : Fin 2) (d h w : Fin 32) (q : Fin 8) :
    val_main_v7 (F := Ideal) x1 (ix5 b d h w q) = maskCell x1 b d h w q := by
  unfold val_main_v7
  refine (flatten_grid_apply (n := 1) (N := 8) _ _ rfl b d h w q (⟨q.val / 4, by omega⟩ : Fin 2)
    (⟨q.val / 2 % 2, by omega⟩ : Fin 2) (⟨q.val % 2, by omega⟩ : Fin 2) (0 : Fin 1) (by
      show q.val = ((q.val / 4 * 2 + q.val / 2 % 2) * 2 + q.val % 2) * 1 + 0
      omega)).trans ?_
  rw [val_main_v6_apply]
  have e : idx_main_v6 (ix8 b d h w (⟨q.val / 4, by omega⟩ : Fin 2) (⟨q.val / 2 % 2, by omega⟩ : Fin 2)
        (⟨q.val % 2, by omega⟩ : Fin 2) (0 : Fin 1))
      = ix8 b d (⟨q.val / 4, by omega⟩ : Fin 2) h (⟨q.val / 2 % 2, by omega⟩ : Fin 2) w
        (⟨q.val % 2, by omega⟩ : Fin 2) (0 : Fin 1) := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  rw [e]
  unfold val_main_v5
  exact split_grid_apply _ _ b d _ h _ w _ _

/-! ## The normalisation -/

theorem mean_apply (b : Fin 2) (d h w : Fin 32) (z : Fin 1) :
    val_main_v14 (F := Ideal) x0 x1 (ix5 b d h w z) = rowMean (mergedRow x0 x1 b d h w) := by
  rw [val_main_v14_apply, val_main_v12_apply, val_main_v11_apply, val_main_v13_apply, val_main_cst_2_apply,
    val_main_cst_1_apply]
  have e : ∀ k : Fin 768, idx_main_v11 (idx_main_v12 (ix5 b d h w z)) k = ix5 b d h w k := fun k => by
    funext a
    match a with
    | ⟨0, _⟩ => rfl
    | ⟨1, _⟩ => rfl
    | ⟨2, _⟩ => rfl
    | ⟨3, _⟩ => rfl
    | ⟨4, _⟩ => rfl
  rw [Finset.sum_congr rfl fun k _ => (congrArg (val_main_v4 (F := Ideal) x0 x1) (e k)).trans (merged_apply x0 x1 b d h w k)]
  show Ideal.div (Ideal.ofBits .f32 0x00000000#32 + ∑ k : Fin 768, mergedRow x0 x1 b d h w k) (Ideal.ofBits .f32 0x44400000#32) = _
  rw [Ideal.ofBits_zero_f32, zero_add]
  rfl

theorem centred_apply (b : Fin 2) (d h w : Fin 32) (k : Fin 768) :
    val_main_v16 (F := Ideal) x0 x1 (ix5 b d h w k) = mergedRow x0 x1 b d h w k - rowMean (mergedRow x0 x1 b d h w) := by
  rw [val_main_v16_apply, val_main_v15_apply]
  have e : idx_main_v15 (ix5 b d h w k) = ix5 b d h w (0 : Fin 1) := by
    funext a
    match a with
    | ⟨0, _⟩ => rfl
    | ⟨1, _⟩ => rfl
    | ⟨2, _⟩ => rfl
    | ⟨3, _⟩ => rfl
    | ⟨4, _⟩ => rfl
  rw [e, mean_apply, merged_apply]
  rfl

theorem centred'_apply (b : Fin 2) (d h w : Fin 32) (k : Fin 768) :
    val_main_v23 (F := Ideal) x0 x1 (ix5 b d h w k) = mergedRow x0 x1 b d h w k - rowMean (mergedRow x0 x1 b d h w) := by
  rw [val_main_v23_apply, val_main_v22_apply]
  have e : idx_main_v22 (ix5 b d h w k) = ix5 b d h w (0 : Fin 1) := by
    funext a
    match a with
    | ⟨0, _⟩ => rfl
    | ⟨1, _⟩ => rfl
    | ⟨2, _⟩ => rfl
    | ⟨3, _⟩ => rfl
    | ⟨4, _⟩ => rfl
  rw [e, mean_apply, merged_apply]
  rfl

theorem var_apply (b : Fin 2) (d h w : Fin 32) (z : Fin 1) :
    val_main_v21 (F := Ideal) x0 x1 (ix5 b d h w z) = rowVar (mergedRow x0 x1 b d h w) := by
  rw [val_main_v21_apply, val_main_v19_apply, val_main_v18_apply, val_main_v20_apply, val_main_cst_4_apply,
    val_main_cst_3_apply]
  have e : ∀ k : Fin 768, idx_main_v18 (idx_main_v19 (ix5 b d h w z)) k = ix5 b d h w k := fun k => by
    funext a
    match a with
    | ⟨0, _⟩ => rfl
    | ⟨1, _⟩ => rfl
    | ⟨2, _⟩ => rfl
    | ⟨3, _⟩ => rfl
    | ⟨4, _⟩ => rfl
  have sq : ∀ k : Fin 768, val_main_v17 (F := Ideal) x0 x1 (idx_main_v18 (idx_main_v19 (ix5 b d h w z)) k)
      = (mergedRow x0 x1 b d h w k - rowMean (mergedRow x0 x1 b d h w))
        * (mergedRow x0 x1 b d h w k - rowMean (mergedRow x0 x1 b d h w)) := fun k => by
    rw [e k, val_main_v17_apply, centred_apply]
    rfl
  rw [Finset.sum_congr rfl fun k _ => sq k]
  show Ideal.div (Ideal.ofBits .f32 0x00000000#32 + _) (Ideal.ofBits .f32 0x44400000#32) = _
  rw [Ideal.ofBits_zero_f32, zero_add]
  rfl

theorem invStd_apply (b : Fin 2) (d h w : Fin 32) (z : Fin 1) :
    val_main_v26 (F := Ideal) x0 x1 (ix5 b d h w z) = Ideal.rsqrt (rowVar (mergedRow x0 x1 b d h w) + epsLn) := by
  rw [val_main_v26_apply, val_main_v25_apply, var_apply, val_main_v24_apply, val_main_cst_5_apply]
  rfl

theorem normed_apply (b : Fin 2) (d h w : Fin 32) (k : Fin 768) :
    val_main_v34 (F := Ideal) x0 x1 x2 x3 (ix5 b d h w k)
      = normed (mergedRow x0 x1 b d h w) (fun c => x2 (ix1 c)) (fun c => x3 (ix1 c)) k := by
  rw [val_main_v34_apply, val_main_v31_apply, val_main_v28_apply, centred'_apply, val_main_v27_apply, val_main_v30_apply,
    val_main_v29_apply, val_main_v33_apply, val_main_v32_apply]
  have e27 : idx_main_v27 (ix5 b d h w k) = ix5 b d h w (0 : Fin 1) := by
    funext a
    match a with
    | ⟨0, _⟩ => rfl
    | ⟨1, _⟩ => rfl
    | ⟨2, _⟩ => rfl
    | ⟨3, _⟩ => rfl
    | ⟨4, _⟩ => rfl
  have e30 : idx_main_v29 (idx_main_v30 (ix5 b d h w k)) = ix1 k := by
    funext a
    match a with
    | ⟨0, _⟩ => rfl
  have e33 : idx_main_v32 (idx_main_v33 (ix5 b d h w k)) = ix1 k := by
    funext a
    match a with
    | ⟨0, _⟩ => rfl
  rw [e27, invStd_apply, e30, e33]
  rfl

/-! ## The two results -/

/-- The reference's first result is `projected` of its arguments. -/
theorem out_eq : val_main_v35 (F := Ideal) x0 x1 x2 x3 x4 = projected x0 x1 x2 x3 x4 := by
  funext I
  obtain ⟨b, d, h, w, o, rfl⟩ : ∃ (b : Fin 2) (d h w : Fin 32) (o : Fin 192), I = ix5 b d h w o :=
    ⟨I 0, I 1, I 2, I 3, I 4, eq_ix5 I⟩
  rw [val_main_v35_apply]
  unfold projected lnProj
  refine Finset.sum_congr rfl fun k _ => ?_
  have el : lidx_main_v35 (ix5 b d h w o) k = ix5 b d h w k := by
    funext a
    match a with
    | ⟨0, _⟩ => rfl
    | ⟨1, _⟩ => rfl
    | ⟨2, _⟩ => rfl
    | ⟨3, _⟩ => rfl
    | ⟨4, _⟩ => rfl
  have er : ridx_main_v35 (ix5 b d h w o) k = ix2 k o := by
    funext a
    match a with
    | ⟨0, _⟩ => rfl
    | ⟨1, _⟩ => rfl
  rw [el, er, normed_apply]

/-- The reference's second result is `marked` of the mask. -/
theorem mark_eq : val_main_v10 (F := Ideal) x1 = marked x1 := by
  funext I
  obtain ⟨b, d, h, w, rfl⟩ : ∃ (b : Fin 2) (d h w : Fin 32), I = ix4 b d h w := ⟨I 0, I 1, I 2, I 3, eq_ix4 I⟩
  rw [val_main_v10_apply, val_main_v8_apply, val_main_v9_apply, val_main_cst_0_apply, val_main_cst_apply]
  have e : ∀ q : Fin 8, idx_main_v8 (ix4 b d h w) q = ix5 b d h w q := fun q => by
    funext a
    match a with
    | ⟨0, _⟩ => rfl
    | ⟨1, _⟩ => rfl
    | ⟨2, _⟩ => rfl
    | ⟨3, _⟩ => rfl
    | ⟨4, _⟩ => rfl
  rw [Finset.sum_congr rfl fun q _ => (congrArg (val_main_v7 (F := Ideal) x1) (e q)).trans (mergedMask_apply x1 b d h w q)]
  show Ideal.cmp .ogt (Ideal.ofBits .f32 0x00000000#32 + ∑ q : Fin 8, maskCell x1 b d h w q) (Ideal.ofBits .f32 0x00000000#32)
    = Ideal.cmp .ogt (∑ q : Fin 8, maskCell x1 b d h w q) (Ideal.ofBits .f32 0x00000000#32)
  rw [Ideal.ofBits_zero_f32, zero_add]

end Cert.ReferenceIdeal.RefValue

end
-- ==== Proof.lean ====
/-
  Voxel merging, then LayerNorm, then a linear map: a fused kernel against a plain reference, on the extended reals.

  Both programs take a voxel grid x[2, 64, 64, 64, 96], a mask mk[2, 64, 64, 64, 1], γ and β of length 768 and a 768×192 matrix.
  The masked grid is merged 2×2×2 — merged voxel (d, h, w) lays the 96 channels of its eight source voxels
  (2d + i, 2h + j, 2w + k) side by side, parity class 4i + 2j + k first — and each merged row of 768 entries is normalised,
  scaled, shifted and projected to 192 channels (`projected`); a merged voxel is marked when the sum of its eight mask
  entries is positive (`marked`).

  The kernel works block by block over a 2×4×8 grid of points: a point holds 16×8×64 source voxels, builds its 8×4×32
  merged rows by slicing the eight parity classes out of the tile and concatenating them, and normalises and projects
  them with one matrix product; it writes the mark as the number 1 or 0, and the program afterwards compares that with ½.
  The reference re-lays the whole grid, transposes the parity axes behind the spatial ones and flattens. Read at an index
  the two constructions give the same source voxel and channel (LibSpaceToDepth), in the same order along the row, so
  the row sums, the normalisation and the contraction are the same sums term by term: no law of arithmetic beyond
  0 + s = s is used and the finiteness of the inputs plays no part. The blocks tile the output arrays (KernelBlocks),
  and a bit written as 1 or 0 exceeds ½ exactly when it is set (VoxelSpec), which joins the second results.
  The ideal pass rewrote nothing, so the kernel's idealization is its own text and `preserves` is trivial.
-/
import proofs.«121648_j6373731467415_2_alg».proof.Defs
import proofs.«121648_j6373731467415_2_alg».proof.Proof.Gen.Kernel
import proofs.«121648_j6373731467415_2_alg».proof.Proof.Gen.Kernel.Skeleton
import proofs.«121648_j6373731467415_2_alg».proof.Proof.Gen.Kernel.Launch
import proofs.«121648_j6373731467415_2_alg».proof.Proof.Gen.Kernel.Points
import proofs.«121648_j6373731467415_2_alg».proof.Proof.Gen.Kernel.Frame
import proofs.«121648_j6373731467415_2_alg».proof.Proof.Gen.KernelIdeal
import proofs.«121648_j6373731467415_2_alg».proof.Proof.Gen.KernelIdeal.Skeleton
import proofs.«121648_j6373731467415_2_alg».proof.Proof.Gen.KernelIdeal.Launch
import proofs.«121648_j6373731467415_2_alg».proof.Proof.Gen.KernelIdeal.Points
import proofs.«121648_j6373731467415_2_alg».proof.Proof.Gen.KernelIdeal.Frame
import proofs.«121648_j6373731467415_2_alg».proof.Proof.Gen.ReferenceIdeal
import proofs.«121648_j6373731467415_2_alg».proof.Proof.Gen.Pre_finite_inputs
import proofs.«121648_j6373731467415_2_alg».proof.Proof.Gen.ReferenceIdeal.Run
import proofs.«121648_j6373731467415_2_alg».proof.Proof.Gen.ReferenceIdeal.Read
import proofs.«121648_j6373731467415_2_alg».proof.Proof.KernelRun
import proofs.«121648_j6373731467415_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both programs end with the first result at `projected` and the second at
    `marked` of those arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v35_eq m' c).trans
      ((Cert.ReferenceIdeal.RefValue.out_eq _ _ _ _ _).trans ?_))
    rw [(hagree c).1, (hagree c).2.1, (hagree c).2.2.1, (hagree c).2.2.2.1, (hagree c).2.2.2.2]
  · refine (h c).2.1.trans ((Cert.ReferenceIdeal.Read.val_main_v10_eq _).trans
      ((Cert.ReferenceIdeal.RefValue.mark_eq _).trans ?_))
    rw [(hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
